-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S256x64 : Shape := ⟨2, ![256, 64]⟩
abbrev S1x64 : Shape := ⟨2, ![1, 64]⟩
abbrev S64x16 : Shape := ⟨2, ![64, 16]⟩
abbrev S1x16 : Shape := ⟨2, ![1, 16]⟩
abbrev S16x4 : Shape := ⟨2, ![16, 4]⟩
abbrev S1x4 : Shape := ⟨2, ![1, 4]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S1x64 : S_.BroadcastsInDim S1x64 (![] : Fin 0 → Fin S1x64.rank)
  reducesTo_S1x64_S_d0_1 : S1x64.ReducesTo [0, 1] S_
  bcast_S_S64x16 : S_.BroadcastsInDim S64x16 (![] : Fin 0 → Fin S64x16.rank)
  reducesTo_S64x16_S_d0_1 : S64x16.ReducesTo [0, 1] S_
  bcast_S_S1x16 : S_.BroadcastsInDim S1x16 (![] : Fin 0 → Fin S1x16.rank)
  reducesTo_S1x16_S_d0_1 : S1x16.ReducesTo [0, 1] S_
  bcast_S_S16x4 : S_.BroadcastsInDim S16x4 (![] : Fin 0 → Fin S16x4.rank)
  reducesTo_S16x4_S_d0_1 : S16x4.ReducesTo [0, 1] S_
  bcast_S_S1x4 : S_.BroadcastsInDim S1x4 (![] : Fin 0 → Fin S1x4.rank)
  reducesTo_S1x4_S_d0_1 : S1x4.ReducesTo [0, 1] S_

variable [Facts]

def fn_part1 {F : FTy → Type} [FloatOps F] (main_arg4 : FVec F S1x16 .f32) (main_arg5 : FVec F S16x4 .f32) (main_arg6 : FVec F S1x4 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S16x4 .f32 := Host.absf main_arg5
  let main_cst_8 : FVec F S_ .f32 := constant S_ .f32 0x7F800000#32
  let main_v25 : FVec F S16x4 .f32 := broadcastInDim S16x4 ![] bcast_S_S16x4 main_cst_8
  let main_v26 : IVec S16x4 1 := cmpf .olt main_v24 main_v25
  let main_c_9 : IVec S_ 1 := constantI S_ 1 1#1
  let main_v27 : IVec S_ 1 := (fun x v => Host.reduce IntOp.andi x v reducesTo_S16x4_S_d0_1 h_S_) main_v26 main_c_9
  let main_v28 : IVec S_ 1 := andi main_v23 main_v27
  let main_v29 : FVec F S1x4 .f32 := Host.absf main_arg6
  let main_cst_10 : FVec F S_ .f32 := constant S_ .f32 0x7F800000#32
  let main_v30 : FVec F S1x4 .f32 := broadcastInDim S1x4 ![] bcast_S_S1x4 main_cst_10
  let main_v31 : IVec S1x4 1 := cmpf .olt main_v29 main_v30
  let main_c_11 : IVec S_ 1 := constantI S_ 1 1#1
  let main_v32 : IVec S_ 1 := (fun x v => Host.reduce IntOp.andi x v reducesTo_S1x4_S_d0_1 h_S_) main_v31 main_c_11
  let main_v33 : IVec S_ 1 := andi main_v28 main_v32
  main_v33

def fn {F : FTy → Type} [FloatOps F] (main_arg0 : FVec F S262144x256 .f32) (main_arg1 : FVec F S256x64 .f32) (main_arg2 : FVec F S1x64 .f32) (main_arg3 : FVec F S64x16 .f32) (main_arg4 : FVec F S1x16 .f32) (main_arg5 : FVec F S16x4 .f32) (main_arg6 : FVec F S1x4 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_arg5 main_arg6 main_v13 main_v16
-- ==== Kernel.lean ====
abbrev S262144x256 : Shape := ⟨2, ![262144, 256]⟩
abbrev S256x64 : Shape := ⟨2, ![256, 64]⟩
abbrev S1x64 : Shape := ⟨2, ![1, 64]⟩
abbrev S64x16 : Shape := ⟨2, ![64, 16]⟩
abbrev S1x16 : Shape := ⟨2, ![1, 16]⟩
abbrev S16x4 : Shape := ⟨2, ![16, 4]⟩
abbrev S1x4 : Shape := ⟨2, ![1, 4]⟩
abbrev S6x262144 : Shape := ⟨2, ![6, 262144]⟩
abbrev S8192x256 : Shape := ⟨2, ![8192, 256]⟩
abbrev S6x8192 : Shape := ⟨2, ![6, 8192]⟩
abbrev S8192x64 : Shape := ⟨2, ![8192, 64]⟩
abbrev S8192x16 : Shape := ⟨2, ![8192, 16]⟩
abbrev S8192x4 : Shape := ⟨2, ![8192, 4]⟩
abbrev S8192 : Shape := ⟨1, ![8192]⟩
abbrev S8192x1 : Shape := ⟨2, ![8192, 1]⟩
abbrev S1 : Shape := ⟨1, ![1]⟩
abbrev S1x1 : Shape := ⟨2, ![1, 1]⟩
abbrev S4x8192 : Shape := ⟨2, ![4, 8192]⟩
abbrev S1x8192 : Shape := ⟨2, ![1, 8192]⟩
abbrev S4x262144 : Shape := ⟨2, ![4, 262144]⟩
abbrev S1x262144 : Shape := ⟨2, ![1, 262144]⟩
abbrev S262144 : Shape := ⟨1, ![262144]⟩
abbrev S32x8192 : Shape := ⟨2, ![32, 8192]⟩
abbrev S32x1 : Shape := ⟨2, ![32, 1]⟩
abbrev S32 : Shape := ⟨1, ![32]⟩
abbrev S_ : Shape := ⟨0, ![]⟩
abbrev S262144x4 : Shape := ⟨2, ![262144, 4]⟩

abbrev nBuf : Space → Nat
  | .hbm => 33
  | .vmem => 10
  | .smem => 0
  | _ => 0

abbrev bufTy : (tb : Table) → Fin (tcTables nBuf tb) → BufTy
  | .hbm, ⟨0, _⟩ => ⟨S262144x256, .f32⟩
  | .hbm, ⟨1, _⟩ => ⟨S256x64, .f32⟩
  | .hbm, ⟨2, _⟩ => ⟨S1x64, .f32⟩
  | .hbm, ⟨3, _⟩ => ⟨S64x16, .f32⟩
  | .hbm, ⟨4, _⟩ => ⟨S1x16, .f32⟩
  | .hbm, ⟨5, _⟩ => ⟨S16x4, .f32⟩
  | .hbm, ⟨6, _⟩ => ⟨S1x4, .f32⟩
  | .hbm, ⟨7, _⟩ => ⟨S6x262144, .f32⟩
  | .hbm, ⟨8, _⟩ => ⟨S4x262144, .f32⟩
  | .hbm, ⟨9, _⟩ => ⟨S1x262144, .f32⟩
  | .hbm, ⟨10, _⟩ => ⟨S262144, .f32⟩
  | .hbm, ⟨11, _⟩ => ⟨S1x262144, .f32⟩
  | .hbm, ⟨12, _⟩ => ⟨S262144, .f32⟩
  | .hbm, ⟨13, _⟩ => ⟨S32x8192, .f32⟩
  | .hbm, ⟨14, _⟩ => ⟨S32x1, .f32⟩
  | .hbm, ⟨15, _⟩ => ⟨S32, .f32⟩
  | .hbm, ⟨16, _⟩ => ⟨S32x8192, .f32⟩
  | .hbm, ⟨17, _⟩ => ⟨S32x1, .f32⟩
  | .hbm, ⟨18, _⟩ => ⟨S32, .f32⟩
  | .hbm, ⟨19, _⟩ => ⟨S_, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S_, .f32⟩
  | .hbm, ⟨27, _⟩ => ⟨S262144x4, .f32⟩
  | .hbm, ⟨28, _⟩ => ⟨S262144x4, .f32⟩
  | .hbm, ⟨29, _⟩ => ⟨S262144x4, .f32⟩
  | .hbm, ⟨30, _⟩ => ⟨S262144x4, .f32⟩
  | .hbm, ⟨31, _⟩ => ⟨S262144x4, .f32⟩
  | .hbm, ⟨32, _⟩ => ⟨S262144x4, .f32⟩
  | .local _ .vmem, ⟨0, _⟩ => ⟨S8192x256, .f32⟩
  | .local _ .vmem, ⟨1, _⟩ => ⟨S8192x256, .f32⟩
  | .local _ .vmem, ⟨2, _⟩ => ⟨S256x64, .f32⟩
  | .local _ .vmem, ⟨3, _⟩ => ⟨S1x64, .f32⟩
  | .local _ .vmem, ⟨4, _⟩ => ⟨S64x16, .f32⟩
  | .local _ .vmem, ⟨5, _⟩ => ⟨S1x16, .f32⟩
  | .local _ .vmem, ⟨6, _⟩ => ⟨S16x4, .f32⟩
  | .local _ .vmem, ⟨7, _⟩ => ⟨S1x4, .f32⟩
  | .local _ .vmem, ⟨8, _⟩ => ⟨S6x8192, .f32⟩
  | .local _ .vmem, ⟨9, _⟩ => ⟨S6x8192, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S8192x256_S8192x256_0_0 : ∀ a, (![0, 0] : Fin 2 → Nat) a + S8192x256.size a ≤ S8192x256.size a
  h_S8192x256 : 0 < S8192x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  broadcasts_S1x64_S8192x64 : S1x64.Broadcasts S8192x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  broadcasts_S1x16_S8192x16 : S1x16.Broadcasts S8192x16
  inb_S16x4_S16x4_0_0 : ∀ a, (![0, 0] : Fin 2 → Nat) a + S16x4.size a ≤ S16x4.size a
  h_S16x4 : 0 < S16x4.numel
  inb_S1x4_S1x4_0_0 : ∀ a, (![0, 0] : Fin 2 → Nat) a + S1x4.size a ≤ S1x4.size a
  h_S1x4 : 0 < S1x4.numel
  broadcasts_S1x4_S8192x4 : S1x4.Broadcasts S8192x4
  reduces_S8192x4_S8192 : S8192x4.Reduces [1] S8192
  shapeCasts_S8192_S8192x1 : S8192.ShapeCasts S8192x1
  reduces_S8192x1_S1 : S8192x1.Reduces [0] S1
  shapeCasts_S1_S1x1 : S1.ShapeCasts S1x1
  broadcasts_S1x1_S8192x4 : S1x1.Broadcasts S8192x4
  transposes_S8192x4_p1_0_S4x8192 : S8192x4.Transposes [1, 0] S4x8192
  shapeCasts_S1x1_S1x1 : S1x1.ShapeCasts S1x1
  broadcasts_S1x1_S1x8192 : S1x1.Broadcasts S1x8192
  concatenates_S4x8192_S1x8192_S1x8192_S6x8192_d0 : Shape.Concatenates [S4x8192, S1x8192, S1x8192] S6x8192 0
  inb_S6x8192_S6x8192_0_0 : ∀ a, (![0, 0] : Fin 2 → Nat) a + S6x8192.size a ≤ S6x8192.size a
  h_S6x8192 : 0 < S6x8192.numel
  slices_S6x262144_S4x262144_0_0 : S6x262144.Slices ![0, 0] S4x262144
  slices_S6x262144_S1x262144_4_0 : S6x262144.Slices ![4, 0] S1x262144
  shapeCasts_S1x262144_S262144 : S1x262144.ShapeCasts S262144
  slices_S6x262144_S1x262144_5_0 : S6x262144.Slices ![5, 0] S1x262144
  shapeCasts_S262144_S32x8192 : S262144.ShapeCasts S32x8192
  slices_S32x8192_S32x1_0_0 : S32x8192.Slices ![0, 0] S32x1
  shapeCasts_S32x1_S32 : S32x1.ShapeCasts S32
  reducesTo_S32_S_d0 : S32.ReducesTo [0] S_
  h_S_ : 0 < S_.numel
  bcast_S_S32 : S_.BroadcastsInDim S32 (![] : Fin 0 → Fin S32.rank)
  transposes_S4x262144_S262144x4_1_0 : S4x262144.Transposes [1, 0] S262144x4
  bcast_S_S262144x4 : S_.BroadcastsInDim S262144x4 (![] : Fin 0 → Fin S262144x4.rank)
  dot_S8192x256_S256x64_S8192x64_1_0_0_1_n_n_wf : DotDims.WF S8192x256 S256x64 S8192x64 [1] [0] [0] [1] [] []
  dot_S8192x64_S64x16_S8192x16_1_0_0_1_n_n_wf : DotDims.WF S8192x64 S64x16 S8192x16 [1] [0] [0] [1] [] []
  dot_S8192x16_S16x4_S8192x4_1_0_0_1_n_n_wf : DotDims.WF S8192x16 S16x4 S8192x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S262144x256.size a
  hwx0_0 : ∀ i : grid0.Coords, EltTy.bits .f32 = 32 ∨ (Rect.block (s := S262144x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x4.size a ≤ S16x4.size a
  hwx0_5 : ∀ i : grid0.Coords, EltTy.bits .f32 = 32 ∨ (Rect.block (s := S16x4) S16x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6x8192.size a ≤ S6x262144.size a
  hwx0_7 : ∀ i : grid0.Coords, EltTy.bits .f32 = 32 ∨ (Rect.block (s := S6x262144) S6x8192.size (cc0_transform_7 i) (hinb0_7 i)).WholeWords (EltTy.packing .f32)

variable [Facts₀]

def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def dot_S8192x16_S16x4_S8192x4_1_0_0_1_n_n : DotDims S8192x16 S16x4 S8192x4 where
  lhsContracting := [1]
  rhsContracting := [0]
  lhsNonContracting := [0]
  rhsNonContracting := [1]
  lhsBatch := []
  rhsBatch := []
  wf := dot_S8192x16_S16x4_S8192x4_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S6x8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S262144x256 : Shape := ⟨2, ![262144, 256]⟩
abbrev S256x64 : Shape := ⟨2, ![256, 64]⟩
abbrev S1x64 : Shape := ⟨2, ![1, 64]⟩
abbrev S64x16 : Shape := ⟨2, ![64, 16]⟩
abbrev S1x16 : Shape := ⟨2, ![1, 16]⟩
abbrev S16x4 : Shape := ⟨2, ![16, 4]⟩
abbrev S1x4 : Shape := ⟨2, ![1, 4]⟩
abbrev S262144x64 : Shape := ⟨2, ![262144, 64]⟩
abbrev S_ : Shape := ⟨0, ![]⟩
abbrev S262144x16 : Shape := ⟨2, ![262144, 16]⟩
abbrev S262144x4 : Shape := ⟨2, ![262144, 4]⟩

abbrev nBuf : Space → Nat
  | .hbm => 29
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S256x64, .f32⟩
  | .hbm, ⟨2, _⟩ => ⟨S1x64, .f32⟩
  | .hbm, ⟨3, _⟩ => ⟨S64x16, .f32⟩
  | .hbm, ⟨4, _⟩ => ⟨S1x16, .f32⟩
  | .hbm, ⟨5, _⟩ => ⟨S16x4, .f32⟩
  | .hbm, ⟨6, _⟩ => ⟨S1x4, .f32⟩
  | .hbm, ⟨7, _⟩ => ⟨S262144x64, .f32⟩
  | .hbm, ⟨8, _⟩ => ⟨S262144x64, .f32⟩
  | .hbm, ⟨9, _⟩ => ⟨S262144x64, .f32⟩
  | .hbm, ⟨10, _⟩ => ⟨S_, .f32⟩
  | .hbm, ⟨11, _⟩ => ⟨S262144x64, .f32⟩
  | .hbm, ⟨12, _⟩ => ⟨S262144x64, .f32⟩
  | .hbm, ⟨13, _⟩ => ⟨S262144x16, .f32⟩
  | .hbm, ⟨14, _⟩ => ⟨S262144x16, .f32⟩
  | .hbm, ⟨15, _⟩ => ⟨S262144x16, .f32⟩
  | .hbm, ⟨16, _⟩ => ⟨S262144x16, .f32⟩
  | .hbm, ⟨17, _⟩ => ⟨S262144x4, .f32⟩
  | .hbm, ⟨18, _⟩ => ⟨S262144x4, .f32⟩
  | .hbm, ⟨19, _⟩ => ⟨S262144x4, .f32⟩
  | .hbm, ⟨20, _⟩ => ⟨S_, .f32⟩
  | .hbm, ⟨21, _⟩ => ⟨S_, .f32⟩
  | .hbm, ⟨22, _⟩ => ⟨S262144x4, .f32⟩
  | .hbm, ⟨23, _⟩ => ⟨S262144x4, .f32⟩
  | .hbm, ⟨24, _⟩ => ⟨S262144x4, .f32⟩
  | .hbm, ⟨25, _⟩ => ⟨S_, .f32⟩
  | .hbm, ⟨26, _⟩ => ⟨S_, .f32⟩
  | .hbm, ⟨27, _⟩ => ⟨S262144x4, .f32⟩
  | .hbm, ⟨28, _⟩ => ⟨S262144x4, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_cst : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S1x16_S262144x16_0_1 : S1x16.BroadcastsInDim S262144x16 (![0, 1] : Fin 2 → Fin S262144x16.rank)
  bcast_S1x4_S262144x4_0_1 : S1x4.BroadcastsInDim S262144x4 (![0, 1] : Fin 2 → Fin S262144x4.rank)
  reducesTo_S262144x4_S_d0_1 : S262144x4.ReducesTo [0, 1] S_
  h_S_ : 0 < S_.numel
  bcast_S_S262144x4 : S_.BroadcastsInDim S262144x4 (![] : Fin 0 → Fin S262144x4.rank)
  dot_S262144x256_S256x64_S262144x64_1_0_0_1_n_n_wf : DotDims.WF S262144x256 S256x64 S262144x64 [1] [0] [0] [1] [] []
  dot_S262144x64_S64x16_S262144x16_1_0_0_1_n_n_wf : DotDims.WF S262144x64 S64x16 S262144x16 [1] [0] [0] [1] [] []
  dot_S262144x16_S16x4_S262144x4_1_0_0_1_n_n_wf : DotDims.WF S262144x16 S16x4 S262144x4 [1] [0] [0] [1] [] []

variable [Facts₀]

def dot_S262144x256_S256x64_S262144x64_1_0_0_1_n_n : DotDims S262144x256 S256x64 S262144x64 where
  lhsContracting := [1]
  rhsContracting := [0]
  lhsNonContracting := [0]
  rhsNonContracting := [1]
  lhsBatch := []
  rhsBatch := []
  wf := dot_S262144x256_S256x64_S262144x64_1_0_0_1_n_n_wf
def dot_S262144x64_S64x16_S262144x16_1_0_0_1_n_n : DotDims S262144x64 S64x16 S262144x16 where
  lhsContracting := [1]
  rhsContracting := [0]
  lhsNonContracting := [0]
  rhsNonContracting := [1]
  lhsBatch := []
  rhsBatch := []
  wf := dot_S262144x64_S64x16_S262144x16_1_0_0_1_n_n_wf
def dot_S262144x16_S16x4_S262144x4_1_0_0_1_n_n : DotDims S262144x16 S16x4 S262144x4 where
  lhsContracting := [1]
  rhsContracting := [0]
  lhsNonContracting := [0]
  rhsNonContracting := [1]
  lhsBatch := []
  rhsBatch := []
  wf := dot_S262144x16_S16x4_S262144x4_1_0_0_1_n_n_wf

class Facts : Prop extends Facts₀ where

variable [Facts]
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.Mlp.lean ====
/-
  One row of a three-layer perceptron, on the extended reals.

  For one input row x (256 entries), weights w1 [256,64], w2 [64,16], w3 [16,4] and biases b1 [1,64], b2 [1,16],
  b3 [1,4] (each held as a one-row matrix), the score of class j is

      h1(a) = max (sum_k x(k) * w1(k,a) + b1(0,a)) 0          a < 64       (the rectifier; its zero is the f32 zero word)
      h2(a) = tanh (sum_k h1(k) * w2(k,a) + b2(0,a))          a < 16
      score(j) = sum_k h2(k) * w3(k,j) + b3(0,j)              j < 4

  with every operation the exact one on the extended reals. A score depends on ONE row of the input only, which is what
  lets a program that cuts the rows into tiles compute the same table of scores as one that does not.
  When every entry of the row, the weights and the biases is a real number, so is every score: sums, products and maxima
  of reals are real, and tanh of a real is real.
-/
import Idealize.ShloMosaic.PureOps.Ideal
import Idealize.ShloMosaic.PureOps.Ideal.Laws
import Idealize.ShloMosaic.Lib.ValueIdx

noncomputable section

namespace Mlp

open Idealize.ShloMosaic Idealize.ShloMosaic.ValueIdx

/-- A matrix of extended reals with `a` rows and `b` columns. -/
abbrev Mat (a b : Nat) := (⟨2, ![a, b]⟩ : Shape).Idx → EReal

/-- The first hidden layer of one row: a dense layer, its bias, the rectifier. -/
def hidden1 (x : Fin 256 → EReal) (w1 : Mat 256 64) (b1 : Mat 1 64) (a : Fin 64) : EReal :=
  max ((∑ k : Fin 256, x k * w1 (ix2 k a)) + b1 (ix2 0 a)) (Ideal.ofBits .f32 0x00000000#32)

/-- The second hidden layer of one row: a dense layer, its bias, the hyperbolic tangent. -/
def hidden2 (x : Fin 256 → EReal) (w1 : Mat 256 64) (b1 : Mat 1 64) (w2 : Mat 64 16) (b2 : Mat 1 16) (a : Fin 16) : EReal :=
  Ideal.tanh ((∑ k : Fin 64, hidden1 x w1 b1 k * w2 (ix2 k a)) + b2 (ix2 0 a))

/-- The four scores of one row. -/
def score (x : Fin 256 → EReal) (w1 : Mat 256 64) (b1 : Mat 1 64) (w2 : Mat 64 16) (b2 : Mat 1 16)
    (w3 : Mat 16 4) (b3 : Mat 1 4) (j : Fin 4) : EReal :=
  (∑ k : Fin 16, hidden2 x w1 b1 w2 b2 k * w3 (ix2 k j)) + b3 (ix2 0 j)

/-! ## Real entries give real scores -/

/-- "is a real number". -/
def IsReal (v : EReal) : Prop := ∃ a : ℝ, v = (a : EReal)

theorem IsReal.add {u v : EReal} (hu : IsReal u) (hv : IsReal v) : IsReal (u + v) := by
  obtain ⟨a, rfl⟩ := hu; obtain ⟨b, rfl⟩ := hv
  exact ⟨a + b, (EReal.coe_add a b).symm⟩

theorem IsReal.mul {u v : EReal} (hu : IsReal u) (hv : IsReal v) : IsReal (u * v) := by
  obtain ⟨a, rfl⟩ := hu; obtain ⟨b, rfl⟩ := hv
  exact ⟨a * b, (EReal.coe_mul a b).symm⟩

theorem IsReal.max {u v : EReal} (hu : IsReal u) (hv : IsReal v) : IsReal (max u v) := by
  rcases max_choice u v with h | h <;> rw [h] <;> assumption

theorem IsReal.tanh {u : EReal} (hu : IsReal u) : IsReal (Ideal.tanh u) := by
  obtain ⟨a, rfl⟩ := hu
  exact ⟨Real.tanh a, rfl⟩

theorem IsReal.zero : IsReal (0 : EReal) := ⟨0, EReal.coe_zero.symm⟩

theorem IsReal.sum {ι : Type} (s : Finset ι) (f : ι → EReal) (h : ∀ k, IsReal (f k)) : IsReal (∑ k ∈ s, f k) :=
  Finset.sum_induction f IsReal (fun _ _ hu hv => hu.add hv) IsReal.zero (fun k _ => h k)

theorem hidden1_real {x : Fin 256 → EReal} {w1 : Mat 256 64} {b1 : Mat 1 64} (hx : ∀ k, IsReal (x k))
    (hw1 : ∀ i, IsReal (w1 i)) (hb1 : ∀ i, IsReal (b1 i)) (a : Fin 64) : IsReal (hidden1 x w1 b1 a) := by
  unfold hidden1
  rw [Ideal.ofBits_zero_f32]
  exact ((IsReal.sum _ _ fun k => (hx k).mul (hw1 _)).add (hb1 _)).max IsReal.zero

theorem hidden2_real {x : Fin 256 → EReal} {w1 : Mat 256 64} {b1 : Mat 1 64} {w2 : Mat 64 16} {b2 : Mat 1 16}
    (hx : ∀ k, IsReal (x k)) (hw1 : ∀ i, IsReal (w1 i)) (hb1 : ∀ i, IsReal (b1 i))
    (hw2 : ∀ i, IsReal (w2 i)) (hb2 : ∀ i, IsReal (b2 i)) (a : Fin 16) : IsReal (hidden2 x w1 b1 w2 b2 a) := by
  unfold hidden2
  exact ((IsReal.sum _ _ fun k => (hidden1_real hx hw1 hb1 k).mul (hw2 _)).add (hb2 _)).tanh

/-- With real entries everywhere, every score is a real number. -/
theorem score_real {x : Fin 256 → EReal} {w1 : Mat 256 64} {b1 : Mat 1 64} {w2 : Mat 64 16} {b2 : Mat 1 16}
    {w3 : Mat 16 4} {b3 : Mat 1 4}
    (hx : ∀ k, IsReal (x k)) (hw1 : ∀ i, IsReal (w1 i)) (hb1 : ∀ i, IsReal (b1 i))
    (hw2 : ∀ i, IsReal (w2 i)) (hb2 : ∀ i, IsReal (b2 i)) (hw3 : ∀ i, IsReal (w3 i)) (hb3 : ∀ i, IsReal (b3 i))
    (j : Fin 4) : IsReal (score x w1 b1 w2 b2 w3 b3 j) := by
  unfold score
  exact (IsReal.sum _ _ fun k => (hidden2_real hx hw1 hb1 hw2 hb2 k).mul (hw3 _)).add (hb3 _)

end Mlp

end
-- ==== Proof.TileScores.lean ====
/-
  The scores of one tile: the kernel's three dense layers read at an entry.

  A block of n rows of the input goes through (rows . w1 + b1), the rectifier, (. w2 + b2), tanh, (. w3 + b3), every
  matrix product a product into the zero accumulator of operands whose change of float format is the identity on the
  extended reals. Read at (r, j) the result is the score of class j of the block's row r (Mlp.score): the rows do not mix.
-/
import proofs.«129930_j26654567039110_2_alg».proof.Proof.Gen.KernelIdeal.Skeleton
import proofs.«129930_j26654567039110_2_alg».proof.Proof.LibPlainDot
import proofs.«129930_j26654567039110_2_alg».proof.Proof.Mlp
import Idealize.ShloMosaic.Lib.ValueLayout
import Idealize.ShloMosaic.Lib.Pipeline.Value

noncomputable section

namespace Cert.KernelIdeal.TileScores

open Idealize.ShloMosaic Idealize.ShloMosaic.ValueIdx Cert.KernelIdeal Cert.KernelIdeal.Gen

/-- A dense layer as the kernel spells it: the product of the rows with the weights, both narrowed to bf16 (the identity
    on the extended reals), accumulated into zero, plus the bias row broadcast down the rows. -/
def dense (M K N : Nat) (hb : (⟨2, ![1, N]⟩ : Shape).Broadcasts ⟨2, ![M, N]⟩)
    (a : FVec Ideal ⟨2, ![M, K]⟩ .f32) (w : FVec Ideal ⟨2, ![K, N]⟩ .f32) (b : FVec Ideal ⟨2, ![1, N]⟩ .f32) :
    FVec Ideal ⟨2, ![M, N]⟩ .f32 :=
  addf (matmul (DotDims.plain M K N) none (truncf .bf16 a (by decide)) (truncf .bf16 w (by decide))
    (constant ⟨2, ![M, N]⟩ .f32 0x00000000#32)) (broadcastTo ⟨2, ![M, N]⟩ b hb)

/-- At entry (r, c): the sum over k of a(r,k) * w(k,c), plus the bias b(0,c). -/
theorem dense_apply (M K N : Nat) (hb : (⟨2, ![1, N]⟩ : Shape).Broadcasts ⟨2, ![M, N]⟩)
    (a : FVec Ideal ⟨2, ![M, K]⟩ .f32) (w : FVec Ideal ⟨2, ![K, N]⟩ .f32) (b : FVec Ideal ⟨2, ![1, N]⟩ .f32)
    (r : Fin M) (c : Fin N) :
    dense M K N hb a w b (ix2 r c) = (∑ k : Fin K, (a (ix2 r k) : EReal) * w (ix2 k c)) + b (ix2 0 c) := by
  show FloatOps.matmul (DotDims.plain M K N) none (truncf .bf16 a (by decide)) (truncf .bf16 w (by decide))
      (constant ⟨2, ![M, N]⟩ .f32 0x00000000#32) (ix2 r c) + broadcastTo ⟨2, ![M, N]⟩ b hb (ix2 r c) = _
  rw [PlainDot.matmul_zero_apply, broadcastTo_1b_ab_apply]
  rfl

/-- The tile's table of scores is three dense layers with the rectifier and tanh between them. -/
theorem pay2_eq (x0 : Vec Ideal S8192x256 .f32) (x1 : Vec Ideal S256x64 .f32) (x2 : Vec Ideal S1x64 .f32)
    (x3 : Vec Ideal S64x16 .f32) (x4 : Vec Ideal S1x16 .f32) (x5 : Vec Ideal S16x4 .f32) (x6 : Vec Ideal S1x4 .f32) :
    k0_pay2 (F := Ideal) x0 x1 x2 x3 x4 x5 x6
      = dense 8192 16 4 broadcasts_S1x4_S8192x4
          (tanh (dense 8192 64 16 broadcasts_S1x16_S8192x16
            (maximumf (dense 8192 256 64 broadcasts_S1x64_S8192x64 x0 x1 x2)
              (broadcast S8192x64 (Scalar.ofBits .f32 0x00000000#32))) x3 x4)) x5 x6 := rfl

/-- Entry (r, j) of the tile's table of scores is the score of class j of the tile's row r. -/
theorem pay2_apply (x0 : Vec Ideal S8192x256 .f32) (x1 : Vec Ideal S256x64 .f32) (x2 : Vec Ideal S1x64 .f32)
    (x3 : Vec Ideal S64x16 .f32) (x4 : Vec Ideal S1x16 .f32) (x5 : Vec Ideal S16x4 .f32) (x6 : Vec Ideal S1x4 .f32)
    (r : Fin 8192) (j : Fin 4) :
    k0_pay2 (F := Ideal) x0 x1 x2 x3 x4 x5 x6 (ix2 r j)
      = Mlp.score (fun k => x0 (ix2 r k)) x1 x2 x3 x4 x5 x6 j := by
  rw [pay2_eq, dense_apply]
  unfold Mlp.score
  refine congrArg (· + x6 (ix2 0 j)) (Finset.sum_congr rfl fun k _ => congrArg (· * x5 (ix2 k j)) ?_)
  show Ideal.tanh (dense 8192 64 16 broadcasts_S1x16_S8192x16 _ x3 x4 (ix2 r k)) = _
  rw [dense_apply]
  unfold Mlp.hidden2
  refine congrArg Ideal.tanh (congrArg (· + x4 (ix2 0 k)) (Finset.sum_congr rfl fun k' _ => congrArg (· * x3 (ix2 k' k)) ?_))
  show max (dense 8192 256 64 broadcasts_S1x64_S8192x64 x0 x1 x2 (ix2 r k')) (Ideal.ofBits .f32 0x00000000#32) = _
  rw [dense_apply]
  rfl

end Cert.KernelIdeal.TileScores

end
-- ==== Proof.TilePack.lean ====
/-
  What one tile packs into its six output rows, read at an entry.

  From the tile's table of scores P [8192, 4] the body takes
    the tile's maximum   m = max over rows r of (max over columns c of P(r,c)),  each a fold of max from the -infinity word,
    the tile's total     s = sum over rows of (sum over columns of exp (P(r,c) - m)),
  and stores the [6, 8192] block whose rows 0..3 are P transposed, row 4 is m in every column and row 5 is s in every column.
-/
import proofs.«129930_j26654567039110_2_alg».proof.Proof.Gen.KernelIdeal.Skeleton
import Idealize.ShloMosaic.PureOps.Ideal.Laws
import Idealize.ShloMosaic.Lib.ValueLayout
import Idealize.ShloMosaic.Lib.Pipeline.Value

noncomputable section

namespace Cert.KernelIdeal.TilePack

open Idealize.ShloMosaic Idealize.ShloMosaic.ValueIdx Cert.KernelIdeal Cert.KernelIdeal.Gen

/-- The pattern 0xFF800000 denotes -infinity, the least extended real. -/
theorem ofBits_neg_inf : Ideal.ofBits .f32 0xFF800000#32 = (⊥ : EReal) := by simp [Ideal.ofBits, Ideal.ieee]

/-! ## Columns [a] -> [a, 1] and single entries [1] -> [1, 1] -/

/-- A vector [a] cast to a column [a, 1] reads, at (r, 0), the vector's entry r. -/
theorem column_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-! ## The maximum and the total of a tile -/

/-- The maximum over the columns of row r. -/
theorem rowMax_apply (P : FVec Ideal S8192x4 .f32) (h : S8192x4.Reduces [1] S8192) (hφ : FKind.Formats .f32)
    (hacc : (0xFF800000#32 : BitVec 32) = FKind.maximumf.neutral .f32 hφ) (r : Fin 8192) :
    multiReduction (F := Ideal) .maximumf [1] S8192 P 0xFF800000#32 h hφ hacc (ix1 r)
      = Finset.univ.fold max ⊥ (fun c : Fin 4 => (P (ix2 r c) : EReal)) := by
  refine (Ideal.multiReduction_maximumf_single P 0xFF800000#32 h hφ hacc (ix1 r)).trans ?_
  rw [Ideal.ofBits_def, ofBits_neg_inf]
  refine congrArg (fun f : Fin 4 → EReal => Finset.univ.fold max ⊥ f) (funext fun c => ?_)
  show P (h.lift (ix1 r) c) = P (ix2 r c)
  refine congrArg P (funext fun a => Fin.ext ?_)
  match a with
  | ⟨0, _⟩ => rfl
  | ⟨1, _⟩ => rfl

/-- The maximum down a column [8192, 1]. -/
theorem colMax_apply (Q : FVec Ideal S8192x1 .f32) (h : S8192x1.Reduces [0] S1) (hφ : FKind.Formats .f32)
    (hacc : (0xFF800000#32 : BitVec 32) = FKind.maximumf.neutral .f32 hφ) (u : Fin 1) :
    multiReduction (F := Ideal) .maximumf [0] S1 Q 0xFF800000#32 h hφ hacc (ix1 u)
      = Finset.univ.fold max ⊥ (fun r : Fin 8192 => (Q (ix2 r (0 : Fin 1)) : EReal)) := by
  refine (Ideal.multiReduction_maximumf_single Q 0xFF800000#32 h hφ hacc (ix1 u)).trans ?_
  rw [Ideal.ofBits_def, ofBits_neg_inf]
  refine congrArg (fun f : Fin 8192 → EReal => Finset.univ.fold max ⊥ f) (funext fun r => ?_)
  show Q (h.lift (ix1 u) r) = Q (ix2 r (0 : Fin 1))
  refine congrArg Q (funext fun a => Fin.ext ?_)
  have hu : u.val = 0 := by omega
  match a with
  | ⟨0, _⟩ => rfl
  | ⟨1, _⟩ => exact hu

/-- The sum over the columns of row r. -/
theorem rowSum_apply (P : FVec Ideal S8192x4 .f32) (h : S8192x4.Reduces [1] S8192) (hφ : FKind.Formats .f32)
    (hacc : (0x00000000#32 : BitVec 32) = FKind.add.neutral .f32 hφ) (r : Fin 8192) :
    multiReduction (F := Ideal) .add [1] S8192 P 0x00000000#32 h hφ hacc (ix1 r)
      = ∑ c : Fin 4, (P (ix2 r c) : EReal) := by
  refine (Ideal.multiReduction_add_single P 0x00000000#32 h hφ hacc (ix1 r)).trans ?_
  refine Finset.sum_congr rfl fun c _ => ?_
  refine congrArg P (funext fun a => Fin.ext ?_)
  match a with
  | ⟨0, _⟩ => rfl
  | ⟨1, _⟩ => rfl

/-- The sum down a column [8192, 1]. -/
theorem colSum_apply (Q : FVec Ideal S8192x1 .f32) (h : S8192x1.Reduces [0] S1) (hφ : FKind.Formats .f32)
    (hacc : (0x00000000#32 : BitVec 32) = FKind.add.neutral .f32 hφ) (u : Fin 1) :
    multiReduction (F := Ideal) .add [0] S1 Q 0x00000000#32 h hφ hacc (ix1 u)
      = ∑ r : Fin 8192, (Q (ix2 r (0 : Fin 1)) : EReal) := by
  refine (Ideal.multiReduction_add_single Q 0x00000000#32 h hφ hacc (ix1 u)).trans ?_
  refine Finset.sum_congr rfl fun r _ => ?_
  refine congrArg Q (funext fun a => Fin.ext ?_)
  have hu : u.val = 0 := by omega
  match a with
  | ⟨0, _⟩ => rfl
  | ⟨1, _⟩ => exact hu

/-- The tile's maximum as a function of its table of scores. -/
def tmax (P : FVec Ideal S8192x4 .f32) : EReal :=
  Finset.univ.fold max ⊥ (fun r : Fin 8192 => Finset.univ.fold max ⊥ (fun c : Fin 4 => (P (ix2 r c) : EReal)))

/-- The tile's total as a function of its table of scores. -/
def tsum (P : FVec Ideal S8192x4 .f32) : EReal :=
  ∑ r : Fin 8192, ∑ c : Fin 4, Ideal.exp ((P (ix2 r c) : EReal) - tmax P)

/-! ## The body's two chains: reduce over columns, cast to a column, reduce down it, cast to [1, 1] -/

/-- A [1, 1] array broadcast to [a, b] reads its one entry everywhere. -/
theorem bcast11_apply {α : Type} {a b : ℕ} (x : (⟨2, ![1, 1]⟩ : Shape).Idx → α)
    (h : (⟨2, ![1, 1]⟩ : Shape).Broadcasts ⟨2, ![a, b]⟩) (r : Fin a) (c : Fin b) :
    broadcastTo ⟨2, ![a, b]⟩ x h (ix2 r c) = x (ix2 (0 : Fin 1) (0 : Fin 1)) :=
  broadcastTo_apply x h _ _ (fun ax => by
    match ax with
    | ⟨0, _⟩ => exact (if_pos rfl).symm
    | ⟨1, _⟩ => exact (if_pos rfl).symm)

/-- The chain of maxima ends at the tile's maximum. -/
theorem maxChain_apply (P : FVec Ideal S8192x4 .f32) (u v : Fin 1) :
    shapeCast S1x1 (multiReduction (F := Ideal) .maximumf [0] S1
      (shapeCast S8192x1 (multiReduction (F := Ideal) .maximumf [1] S8192 P 0xFF800000#32 reduces_S8192x4_S8192 (.inl rfl) rfl)
        shapeCasts_S8192_S8192x1) 0xFF800000#32 reduces_S8192x1_S1 (.inl rfl) rfl) shapeCasts_S1_S1x1 (ix2 u v) = tmax P := by
  refine (shapeCast_a_1a_apply _ _ u v).trans ?_
  refine (colMax_apply _ _ _ _ v).trans ?_
  unfold tmax
  refine congrArg (fun f : Fin 8192 → EReal => Finset.univ.fold max ⊥ f) (funext fun r => ?_)
  refine (column_apply _ _ r 0).trans ?_
  exact rowMax_apply _ _ _ _ r

/-- The chain of sums of exponentials shifted by a [1, 1] value ends at the double sum. -/
theorem sumChain_apply (P : FVec Ideal S8192x4 .f32) (mx : FVec Ideal S1x1 .f32) (u v : Fin 1) :
    shapeCast S1x1 (multiReduction (F := Ideal) .add [0] S1
      (shapeCast S8192x1 (multiReduction (F := Ideal) .add [1] S8192
          (exp (subf P (broadcastTo S8192x4 mx broadcasts_S1x1_S8192x4))) 0x00000000#32 reduces_S8192x4_S8192 (.inl rfl) rfl)
        shapeCasts_S8192_S8192x1) 0x00000000#32 reduces_S8192x1_S1 (.inl rfl) rfl) shapeCasts_S1_S1x1 (ix2 u v)
      = ∑ r : Fin 8192, ∑ c : Fin 4, Ideal.exp ((P (ix2 r c) : EReal) - mx (ix2 (0 : Fin 1) (0 : Fin 1))) := by
  refine (shapeCast_a_1a_apply _ _ u v).trans ?_
  refine (colSum_apply _ _ _ _ v).trans ?_
  refine Finset.sum_congr rfl fun r _ => ?_
  refine (column_apply _ _ r 0).trans ?_
  refine (rowSum_apply _ _ _ _ r).trans ?_
  refine Finset.sum_congr rfl fun c _ => ?_
  show Ideal.exp ((P (ix2 r c) : EReal) - broadcastTo S8192x4 mx broadcasts_S1x1_S8192x4 (ix2 r c)) = _
  rw [bcast11_apply]

/-- The tile's maximum, as the body computes it. -/
theorem pay3_apply (x0 : Vec Ideal S8192x256 .f32) (x1 : Vec Ideal S256x64 .f32) (x2 : Vec Ideal S1x64 .f32)
    (x3 : Vec Ideal S64x16 .f32) (x4 : Vec Ideal S1x16 .f32) (x5 : Vec Ideal S16x4 .f32) (x6 : Vec Ideal S1x4 .f32) (u v : Fin 1) :
    k0_pay3 (F := Ideal) x0 x1 x2 x3 x4 x5 x6 (ix2 u v) = tmax (k0_pay2 (F := Ideal) x0 x1 x2 x3 x4 x5 x6) :=
  maxChain_apply (k0_pay2 (F := Ideal) x0 x1 x2 x3 x4 x5 x6) u v

/-- The tile's total, as the body computes it. -/
theorem pay4_apply (x0 : Vec Ideal S8192x256 .f32) (x1 : Vec Ideal S256x64 .f32) (x2 : Vec Ideal S1x64 .f32)
    (x3 : Vec Ideal S64x16 .f32) (x4 : Vec Ideal S1x16 .f32) (x5 : Vec Ideal S16x4 .f32) (x6 : Vec Ideal S1x4 .f32) (u v : Fin 1) :
    k0_pay4 (F := Ideal) x0 x1 x2 x3 x4 x5 x6 (ix2 u v) = tsum (k0_pay2 (F := Ideal) x0 x1 x2 x3 x4 x5 x6) := by
  refine (sumChain_apply (k0_pay2 (F := Ideal) x0 x1 x2 x3 x4 x5 x6) (k0_pay3 (F := Ideal) x0 x1 x2 x3 x4 x5 x6) u v).trans ?_
  unfold tsum
  rw [pay3_apply]

/-- The transposed table of scores. -/
theorem pay5_apply (x0 : Vec Ideal S8192x256 .f32) (x1 : Vec Ideal S256x64 .f32) (x2 : Vec Ideal S1x64 .f32)
    (x3 : Vec Ideal S64x16 .f32) (x4 : Vec Ideal S1x16 .f32) (x5 : Vec Ideal S16x4 .f32) (x6 : Vec Ideal S1x4 .f32)
    (j : Fin 4) (r : Fin 8192) :
    k0_pay5 (F := Ideal) x0 x1 x2 x3 x4 x5 x6 (ix2 j r) = k0_pay2 (F := Ideal) x0 x1 x2 x3 x4 x5 x6 (ix2 r j) :=
  transpose_ix2_apply (k0_pay2 (F := Ideal) x0 x1 x2 x3 x4 x5 x6) transposes_S8192x4_p1_0_S4x8192 j r

/-! ## The six packed rows -/

/-- The three pieces the body stacks: the transposed scores, and the maximum and the total each spread over one row. -/
abbrev pieces (v28 v35 : FVec Ideal S1x1 .f32) (v36 : FVec Ideal S4x8192 .f32) : List ((s : Shape) × (s.Idx → Ideal .f32)) :=
  [⟨S4x8192, v36⟩,
   ⟨S1x8192, broadcastTo S1x8192 (shapeCast S1x1 v28 shapeCasts_S1x1_S1x1) broadcasts_S1x1_S1x8192⟩,
   ⟨S1x8192, broadcastTo S1x8192 (shapeCast S1x1 v35 shapeCasts_S1x1_S1x1) broadcasts_S1x1_S1x8192⟩]

/-- The packed block is the three pieces stacked along the rows. -/
theorem pay1_eq (v28 v35 : FVec Ideal S1x1 .f32) (v36 : FVec Ideal S4x8192 .f32) :
    k0_pay1 (F := Ideal) v28 v35 v36
      = concatenate S6x8192 0 (pieces v28 v35 v36) concatenates_S4x8192_S1x8192_S1x8192_S6x8192_d0 := rfl

/-- Rows 0..3 of the packed block are the transposed scores. -/
theorem pack_scores (v28 v35 : FVec Ideal S1x1 .f32) (v36 : FVec Ideal S4x8192 .f32) (a : Fin 6) (j : Fin 4) (r : Fin 8192)
    (ha : a.val = j.val) : k0_pay1 (F := Ideal) v28 v35 v36 (ix2 a r) = v36 (ix2 j r) := by
  rw [pay1_eq]
  refine concatenate_apply_piece (t := S6x8192) (0 : Fin 2) (pieces v28 v35 v36) concatenates_S4x8192_S1x8192_S1x8192_S6x8192_d0 (ix2 a r) 0
    (by show (0 : ℕ) < 3; omega) S4x8192 v36 rfl rfl 0 rfl (ix2 j r) ?_ ?_
  · intro b hb
    match b with
    | ⟨0, _⟩ => exact absurd rfl hb
    | ⟨1, _⟩ => rfl
  · show 0 + j.val = a.val
    omega

/-- Row 4 of the packed block is the tile's maximum, in every column. -/
theorem pack_max (v28 v35 : FVec Ideal S1x1 .f32) (v36 : FVec Ideal S4x8192 .f32) (a : Fin 6) (r : Fin 8192)
    (ha : a.val = 4) : k0_pay1 (F := Ideal) v28 v35 v36 (ix2 a r) = v28 (ix2 (0 : Fin 1) (0 : Fin 1)) := by
  rw [pay1_eq]
  refine (concatenate_apply_piece (t := S6x8192) (0 : Fin 2) (pieces v28 v35 v36) concatenates_S4x8192_S1x8192_S1x8192_S6x8192_d0 (ix2 a r) 1
    (by show (1 : ℕ) < 3; omega) S1x8192 (broadcastTo S1x8192 (shapeCast S1x1 v28 shapeCasts_S1x1_S1x1) broadcasts_S1x1_S1x8192) rfl rfl 4 rfl
    (ix2 (0 : Fin 1) r) ?_ ?_).trans ?_
  · intro b hb
    match b with
    | ⟨0, _⟩ => exact absurd rfl hb
    | ⟨1, _⟩ => rfl
  · show 4 + 0 = a.val
    omega
  · refine (bcast11_apply _ _ 0 r).trans ?_
    rw [shapeCast_self]

/-- Row 5 of the packed block is the tile's total, in every column. -/
theorem pack_sum (v28 v35 : FVec Ideal S1x1 .f32) (v36 : FVec Ideal S4x8192 .f32) (a : Fin 6) (r : Fin 8192)
    (ha : a.val = 5) : k0_pay1 (F := Ideal) v28 v35 v36 (ix2 a r) = v35 (ix2 (0 : Fin 1) (0 : Fin 1)) := by
  rw [pay1_eq]
  refine (concatenate_apply_piece (t := S6x8192) (0 : Fin 2) (pieces v28 v35 v36) concatenates_S4x8192_S1x8192_S1x8192_S6x8192_d0 (ix2 a r) 2
    (by show (2 : ℕ) < 3; omega) S1x8192 (broadcastTo S1x8192 (shapeCast S1x1 v35 shapeCasts_S1x1_S1x1) broadcasts_S1x1_S1x8192) rfl rfl 5 rfl
    (ix2 (0 : Fin 1) r) ?_ ?_).trans ?_
  · intro b hb
    match b with
    | ⟨0, _⟩ => exact absurd rfl hb
    | ⟨1, _⟩ => rfl
  · show 5 + 0 = a.val
    omega
  · refine (bcast11_apply _ _ 0 r).trans ?_
    rw [shapeCast_self]

end Cert.KernelIdeal.TilePack

end
-- ==== Proof.LibTiledSoftmax.lean ====
import Idealize.ShloMosaic.PureOps.Ideal

/-!
# Softmax over a table cut into tiles: combining per-tile maxima and sums

A table of extended-real scores `h t r c` is indexed by a tile `t`, a row `r` and a column `c`.
For each tile we take its maximum `tileMax h t` (a fold of `max` from `⊥`, over the columns of each
row and then over the rows) and its sum `tileSum h t = ∑ r c, exp (h t r c - tileMax h t)`.  The tiles
are then combined: `allMax h` is the fold of `max` from `⊥` of the tile maxima and
`allSum h = ∑ t, tileSum h t * exp (tileMax h t - allMax h)`.

This module proves

* `allMax_le_iff`: `allMax h` is characterised by its upper bounds, `allMax h ≤ b ↔ ∀ t r c, h t r c ≤ b`,
  with no finiteness assumption; hence (`eq_allMax_of_le_iff`) it equals any other quantity with the
  same upper bounds, in particular a maximum of the same entries taken in any other order;
* `allSum_eq`: when every score is a real number, the combined sum is the plain sum over the whole
  table of `exp (h t r c - allMax h)`.  The law behind it is `exp (a - m) * exp (m - M) = exp (a - M)`
  together with distributivity of multiplication over a finite sum; both hold for real numbers and
  fail at the infinities, which is why the scores are assumed real;
* `allMax_real`, `tileMax_real`: over nonempty index types the maxima of real scores are real.
-/

noncomputable section

namespace TiledSoftmax

open Idealize.ShloMosaic

variable {τ ρ γ : Type} [Fintype τ] [Fintype ρ] [Fintype γ]

/-- the maximum of tile t: columns first, then rows, each fold started from ⊥ -/
def tileMax (h : τ → ρ → γ → EReal) (t : τ) : EReal :=
  Finset.univ.fold max ⊥ (fun r => Finset.univ.fold max ⊥ (fun c => h t r c))

/-- the sum over tile t of the exponentials of the scores shifted by the tile's maximum -/
def tileSum (h : τ → ρ → γ → EReal) (t : τ) : EReal :=
  ∑ r, ∑ c, Ideal.exp (h t r c - tileMax h t)

/-- the maximum over all tiles of the tile maxima, again a fold started from ⊥ -/
def allMax (h : τ → ρ → γ → EReal) : EReal := Finset.univ.fold max ⊥ (tileMax h)

/-- the tile sums, each rescaled from its own maximum to the combined maximum, added up -/
def allSum (h : τ → ρ → γ → EReal) : EReal :=
  ∑ t, tileSum h t * Ideal.exp (tileMax h t - allMax h)

/-! ### Folds of max from ⊥ over a whole finite type -/

/-- A fold of max from ⊥ over a whole finite type is below b exactly when every term is. -/
theorem univ_fold_max_le_iff {ι : Type} [Fintype ι] (f : ι → EReal) (b : EReal) :
    Finset.univ.fold max ⊥ f ≤ b ↔ ∀ i, f i ≤ b := by
  rw [Finset.fold_max_le]
  constructor
  · rintro ⟨_, hf⟩ i
    exact hf i (Finset.mem_univ i)
  · intro hf
    exact ⟨bot_le, fun i _ => hf i⟩

/-- Every term is below the fold. -/
theorem le_univ_fold_max {ι : Type} [Fintype ι] (f : ι → EReal) (i : ι) :
    f i ≤ Finset.univ.fold max ⊥ f :=
  (univ_fold_max_le_iff f _).1 le_rfl i

/-- Over a nonempty finite type, the fold of max from ⊥ of real terms is one of the terms. -/
theorem univ_fold_max_mem {ι : Type} [Fintype ι] [Nonempty ι] (f : ι → EReal)
    (hf : ∀ i, ∃ x : ℝ, f i = (x : EReal)) : ∃ i, Finset.univ.fold max ⊥ f = f i := by
  rcases (Finset.le_fold_max (c := Finset.univ.fold max ⊥ f)).1 le_rfl with h2 | ⟨i, _, h2⟩
  · exfalso
    obtain ⟨i⟩ := ‹Nonempty ι›
    obtain ⟨x, hx⟩ := hf i
    have h3 : f i ≤ ⊥ := le_trans (le_univ_fold_max f i) h2
    rw [hx] at h3
    exact absurd h3 (not_le.2 (EReal.bot_lt_coe x))
  · exact ⟨i, le_antisymm h2 (le_univ_fold_max f i)⟩

/-- Over a nonempty finite type, the fold of max from ⊥ of real terms is real. -/
theorem univ_fold_max_real {ι : Type} [Fintype ι] [Nonempty ι] (f : ι → EReal)
    (hf : ∀ i, ∃ x : ℝ, f i = (x : EReal)) : ∃ x : ℝ, Finset.univ.fold max ⊥ f = (x : EReal) := by
  obtain ⟨i, hi⟩ := univ_fold_max_mem f hf
  obtain ⟨x, hx⟩ := hf i
  exact ⟨x, hi.trans hx⟩

/-! ### The maxima -/

theorem tileMax_le_iff (h : τ → ρ → γ → EReal) (t : τ) (b : EReal) :
    tileMax h t ≤ b ↔ ∀ r c, h t r c ≤ b := by
  unfold tileMax
  rw [univ_fold_max_le_iff]
  exact forall_congr' fun r => univ_fold_max_le_iff _ b

theorem allMax_le_iff (h : τ → ρ → γ → EReal) (b : EReal) :
    allMax h ≤ b ↔ ∀ t r c, h t r c ≤ b := by
  unfold allMax
  rw [univ_fold_max_le_iff]
  exact forall_congr' fun t => tileMax_le_iff h t b

/-- Every score is below the combined maximum. -/
theorem le_allMax (h : τ → ρ → γ → EReal) (t : τ) (r : ρ) (c : γ) : h t r c ≤ allMax h :=
  (allMax_le_iff h _).1 le_rfl t r c

/-- A quantity with the same upper bounds as the scores is the combined maximum. -/
theorem eq_allMax_of_le_iff (h : τ → ρ → γ → EReal) (M : EReal)
    (hM : ∀ b : EReal, M ≤ b ↔ ∀ t r c, h t r c ≤ b) : M = allMax h := by
  apply le_antisymm
  · exact (hM (allMax h)).2 (le_allMax h)
  · exact (allMax_le_iff h M).2 ((hM M).1 le_rfl)

theorem tileMax_real [Nonempty ρ] [Nonempty γ] (h : τ → ρ → γ → EReal)
    (hreal : ∀ t r c, ∃ x : ℝ, h t r c = (x : EReal)) (t : τ) :
    ∃ x : ℝ, tileMax h t = (x : EReal) :=
  univ_fold_max_real _ fun r => univ_fold_max_real _ fun c => hreal t r c

/-- under the realness hypothesis the combined maximum is real -/
theorem allMax_real [Nonempty τ] [Nonempty ρ] [Nonempty γ] (h : τ → ρ → γ → EReal)
    (hreal : ∀ t r c, ∃ x : ℝ, h t r c = (x : EReal)) : ∃ x : ℝ, allMax h = (x : EReal) :=
  univ_fold_max_real _ fun t => tileMax_real h hreal t

/-! ### The sums -/

/-- The inclusion of the reals in the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity behind the recombination: rescaling the shifted exponentials of one tile
    from the tile's maximum m to the combined maximum M. -/
theorem real_rescale (g : ρ → γ → ℝ) (m M : ℝ) :
    (∑ r, ∑ c, Real.exp (g r c - m)) * Real.exp (m - M) = ∑ r, ∑ c, Real.exp (g r c - M) := by
  rw [Finset.sum_mul]
  refine Finset.sum_congr rfl fun r _ => ?_
  rw [Finset.sum_mul]
  refine Finset.sum_congr rfl fun c _ => ?_
  rw [← Real.exp_add]
  congr 1
  ring

theorem allSum_eq [Nonempty τ] [Nonempty ρ] [Nonempty γ] (h : τ → ρ → γ → EReal)
    (hreal : ∀ t r c, ∃ x : ℝ, h t r c = (x : EReal)) :
    allSum h = ∑ t, ∑ r, ∑ c, Ideal.exp (h t r c - allMax h) := by
  obtain ⟨M, hM⟩ := allMax_real h hreal
  have hm' : ∀ t, ∃ m : ℝ, tileMax h t = (m : EReal) := tileMax_real h hreal
  choose m hm using hm'
  choose g hg using hreal
  unfold allSum tileSum
  rw [hM]
  refine Finset.sum_congr rfl fun t _ => ?_
  rw [hm t]
  simp only [hg, ← EReal.coe_sub, Ideal.exp_coe, ← coe_sum, ← EReal.coe_mul]
  rw [real_rescale]

/-- When every score is real, the sum over the whole table of the exponentials shifted by the
    combined maximum is a positive real number; in particular it is neither zero nor infinite. -/
theorem total_real_pos [Nonempty τ] [Nonempty ρ] [Nonempty γ] (h : τ → ρ → γ → EReal)
    (hreal : ∀ t r c, ∃ x : ℝ, h t r c = (x : EReal)) :
    ∃ S : ℝ, 0 < S ∧ (∑ t, ∑ r, ∑ c, Ideal.exp (h t r c - allMax h)) = (S : EReal) := by
  obtain ⟨M, hM⟩ := allMax_real h hreal
  choose g hg using hreal
  refine ⟨∑ t, ∑ r, ∑ c, Real.exp (g t r c - M), ?_, ?_⟩
  · exact Finset.sum_pos (fun t _ => Finset.sum_pos (fun r _ => Finset.sum_pos
      (fun c _ => Real.exp_pos _) Finset.univ_nonempty) Finset.univ_nonempty) Finset.univ_nonempty
  · rw [hM]
    simp only [hg, ← EReal.coe_sub, Ideal.exp_coe, ← coe_sum]

/-- The same for the combined sum of the rescaled tile sums. -/
theorem allSum_real_pos [Nonempty τ] [Nonempty ρ] [Nonempty γ] (h : τ → ρ → γ → EReal)
    (hreal : ∀ t r c, ∃ x : ℝ, h t r c = (x : EReal)) :
    ∃ S : ℝ, 0 < S ∧ allSum h = (S : EReal) := by
  rw [allSum_eq h hreal]
  exact total_real_pos h hreal

/-- The combined sum of real scores is not zero. -/
theorem allSum_ne_zero [Nonempty τ] [Nonempty ρ] [Nonempty γ] (h : τ → ρ → γ → EReal)
    (hreal : ∀ t r c, ∃ x : ℝ, h t r c = (x : EReal)) : allSum h ≠ 0 := by
  obtain ⟨S, hS, hE⟩ := allSum_real_pos h hreal
  rw [hE]
  exact_mod_cast hS.ne'

end TiledSoftmax
-- ==== Proof.Spec.lean ====
/-
  The specification: a softmax over ALL entries of the table of scores of 262144 rows.

  L(R, j) is the score of class j of row R (Mlp.score of that row). The rows are cut into 32 tiles of 8192
  (row 8192 t + r is row r of tile t). With M the maximum of L over the whole table, taken tile by tile
  (TiledSoftmax.allMax), and S the tiles' totals recombined (TiledSoftmax.allSum), the result at (R, j) is

      exp (L(R, j) - M) / (0 + S)

  where 0 is the f32 zero word the programs start their sums from. Also here: a sum over all rows is the sum over tiles
  of the sum over the tile's rows, for any commutative addition.
-/
import proofs.«129930_j26654567039110_2_alg».proof.Proof.Mlp
import proofs.«129930_j26654567039110_2_alg».proof.Proof.LibTiledSoftmax
import Idealize.ShloMosaic.PureOps.Ideal
import Idealize.ShloMosaic.Lib.ValueIdx

noncomputable section

namespace Spec

open Idealize.ShloMosaic Idealize.ShloMosaic.ValueIdx

/-- Row `r` of tile `t` is row `8192 t + r` of the whole. -/
def row (t : Fin 32) (r : Fin 8192) : Fin 262144 := ⟨t.val * 8192 + r.val, by omega⟩

/-- The tile a row lies in, and its place there. -/
def tileOf (R : Fin 262144) : Fin 32 := ⟨R.val / 8192, by omega⟩
def inTile (R : Fin 262144) : Fin 8192 := ⟨R.val % 8192, by omega⟩

theorem tileOf_row (t : Fin 32) (r : Fin 8192) : tileOf (row t r) = t :=
  Fin.ext (by show (t.val * 8192 + r.val) / 8192 = t.val; omega)

theorem row_tileOf (R : Fin 262144) : row (tileOf R) (inTile R) = R :=
  Fin.ext (by show R.val / 8192 * 8192 + R.val % 8192 = R.val; omega)

/-- The table of scores of the whole input: row R, class j. -/
def scores (X : (⟨2, ![262144, 256]⟩ : Shape).Idx → EReal) (W1 : Mlp.Mat 256 64) (B1 : Mlp.Mat 1 64) (W2 : Mlp.Mat 64 16)
    (B2 : Mlp.Mat 1 16) (W3 : Mlp.Mat 16 4) (B3 : Mlp.Mat 1 4) (R : Fin 262144) (j : Fin 4) : EReal :=
  Mlp.score (fun k => X (ix2 R k)) W1 B1 W2 B2 W3 B3 j

/-- A table over all rows, cut into 32 tiles of 8192 rows. -/
def tiled (L : Fin 262144 → Fin 4 → EReal) (t : Fin 32) (r : Fin 8192) (j : Fin 4) : EReal := L (row t r) j

/-- The softmax over all entries, with the maximum and the total taken tile by tile. -/
def result (L : Fin 262144 → Fin 4 → EReal) (R : Fin 262144) (j : Fin 4) : EReal :=
  Ideal.div (Ideal.exp (L R j - TiledSoftmax.allMax (tiled L)))
    (Ideal.ofBits .f32 0x00000000#32 + TiledSoftmax.allSum (tiled L))

/-- A sum over all 262144 rows is the sum over the 32 tiles of the sum over the tile's 8192 rows. -/
theorem sum_rows {M : Type} [AddCommMonoid M] (f : Fin 262144 → M) :
    ∑ R : Fin 262144, f R = ∑ t : Fin 32, ∑ r : Fin 8192, f (row t r) := by
  have e : ∀ p : Fin 32 × Fin 8192, (finProdFinEquiv p : Fin 262144) = row p.1 p.2 := fun p =>
    Fin.ext (by show p.2.val + 8192 * p.1.val = p.1.val * 8192 + p.2.val; omega)
  rw [← Equiv.sum_comp (finProdFinEquiv : Fin 32 × Fin 8192 ≃ Fin 262144) f, Fintype.sum_prod_type]
  simp only [e]

/-- A bound on every entry of the table, said over all rows or tile by tile. -/
theorem forall_rows (p : Fin 262144 → Prop) : (∀ R, p R) ↔ ∀ t r, p (row t r) :=
  ⟨fun h t r => h _, fun h R => row_tileOf R ▸ h (tileOf R) (inTile R)⟩

end Spec

end
-- ==== Proof.HostTail.lean ====
/-
  The lines after the kernel, read at an entry.

  The kernel leaves a packed array P [6, 262144]: rows 0..3 the transposed scores, row 4 each tile's maximum repeated over
  the tile's 8192 columns, row 5 each tile's total likewise. The lines after it take the first entry of each of the 32
  tiles of rows 4 and 5 (m_t = P(4, 8192 t), s_t = P(5, 8192 t)), the combined maximum M = max_t m_t (a fold of max from
  the -infinity word), the combined total S = 0 + sum_t s_t * exp (m_t - M), and return, at (R, j),
  exp (P(j, R) - M) / S.
-/
import proofs.«129930_j26654567039110_2_alg».proof.Proof.Gen.KernelIdeal.Launch
import proofs.«129930_j26654567039110_2_alg».proof.Proof.LibTiledSoftmax
import proofs.«129930_j26654567039110_2_alg».proof.Proof.Spec
import Idealize.ShloMosaic.PureOps.Ideal.Laws
import Idealize.ShloMosaic.Lib.ValueLayout
import Idealize.ShloMosaic.Lib.Pipeline.Value
import Idealize.ShloMosaic.Lib.StableHlo.Run

noncomputable section

namespace Cert.KernelIdeal.HostTail

open Idealize.ShloMosaic Idealize.ShloMosaic.TcCoe Idealize.ShloMosaic.ValueIdx Idealize.SL.Sem Idealize.ShloMosaic.StableHlo
open Cert.KernelIdeal Cert.KernelIdeal.Gen Spec

/-- The first entry of each tile of row `o` of the packed array. -/
def firsts (o : Nat) (h : S6x262144.Slices ![o, 0] S1x262144) (P : FVec Ideal S6x262144 .f32) : FVec Ideal S32 .f32 :=
  shapeCast S32 (extractStridedSlice S32x1 ![0, 0]
    (shapeCast S32x8192 (shapeCast S262144 (extractStridedSlice S1x262144 ![o, 0] P h) shapeCasts_S1x262144_S262144)
      shapeCasts_S262144_S32x8192) slices_S32x8192_S32x1_0_0) shapeCasts_S32x1_S32

/-- The combined maximum. -/
def gmax (P : FVec Ideal S6x262144 .f32) : FVec Ideal S_ .f32 :=
  Host.reduce FloatOps.maximumf (firsts 4 slices_S6x262144_S1x262144_4_0 P) (constant (F := Ideal) S_ .f32 0xFF800000#32)
    reducesTo_S32_S_d0 h_S_

/-- The combined total. -/
def gsum (P : FVec Ideal S6x262144 .f32) : FVec Ideal S_ .f32 :=
  Host.reduceAdd (F := Ideal) (mulf (firsts 5 slices_S6x262144_S1x262144_5_0 P)
      (Host.exp (subf (firsts 4 slices_S6x262144_S1x262144_4_0 P) (broadcastInDim S32 ![] bcast_S_S32 (gmax P)))))
    (constant (F := Ideal) S_ .f32 0x00000000#32) reducesTo_S32_S_d0 h_S_

/-- The 25 lines after the kernel as one function of the packed array. -/
def tail (P : FVec Ideal S6x262144 .f32) : FVec Ideal S262144x4 .f32 :=
  Host.divf (F := Ideal)
    (Host.exp (subf
      (transpose S262144x4 [1, 0] (extractStridedSlice S4x262144 ![0, 0] P slices_S6x262144_S4x262144_0_0)
        transposes_S4x262144_S262144x4_1_0)
      (broadcastInDim S262144x4 ![] bcast_S_S262144x4 (gmax P))))
    (broadcastInDim S262144x4 ![] bcast_S_S262144x4 (gsum P))

set_option maxHeartbeats 4000000 in
/-- Whatever the buffers hold when the lines start, the result buffer ends at `tail` of the packed array's buffer. -/
theorem after_tail (W : Valuation τ sig (Elt Ideal)) :
    StableHlo.after (hostOps1 (F := Ideal)) W (Proc.devRef .tc main_v23) = tail (W (Proc.devRef .tc main_v0)) := by
  after_results
  rfl

/-! ## Reading the pieces -/

theorem ofBits_neg_inf : Ideal.ofBits .f32 0xFF800000#32 = (⊥ : EReal) := by simp [Ideal.ofBits, Ideal.ieee]

/-- A rank-one index set of extent n is Fin n. -/
def idx1Equiv {n : Nat} : (⟨1, ![n]⟩ : Shape).Idx ≃ Fin n where
  toFun i := i 0
  invFun := ix1
  left_inv i := (eq_ix1 i).symm
  right_inv _ := rfl

/-- Entry `t` of `firsts` is the packed array at row `o`, column `8192 t`. -/
theorem firsts_apply (o : Nat) (h : S6x262144.Slices ![o, 0] S1x262144) (P : FVec Ideal S6x262144 .f32) (a : Fin 6)
    (ha : a.val = o) (t : Fin 32) : firsts o h P (ix1 t) = P (ix2 a (row t 0)) := by
  unfold firsts
  refine (shapeCast_apply _ shapeCasts_S32x1_S32 (ix1 t) (ix2 t (0 : Fin 1)) (by
    rw [Shape.rowMajor_val_two, Shape.rowMajor_val_one]
    show t.val * 1 + 0 = t.val
    omega)).trans ?_
  refine (slice2_axis1_apply 0 _ slices_S32x8192_S32x1_0_0 t (0 : Fin 1) (0 : Fin 8192) rfl).trans ?_
  refine (shapeCast_apply _ shapeCasts_S262144_S32x8192 (ix2 t (0 : Fin 8192)) (ix1 (row t 0)) (by
    rw [Shape.rowMajor_val_two, Shape.rowMajor_val_one]
    rfl)).trans ?_
  refine (shapeCast_1a_a_apply _ shapeCasts_S1x262144_S262144 (row t 0)).trans ?_
  exact slice2_axis0_apply o P h (0 : Fin 1) (row t 0) a (by rw [ha]; rfl)

/-- The combined maximum is the fold of max from bottom over the tiles' first entries of row 4. -/
theorem gmax_apply (P : FVec Ideal S6x262144 .f32) (i : S_.Idx) :
    gmax P i = Finset.univ.fold max ⊥ (fun t : Fin 32 => (P (ix2 (4 : Fin 6) (row t 0)) : EReal)) := by
  unfold gmax
  refine (Host.reduce_eq_fold (FloatOps.maximumf (F := Ideal) (φ := .f32)) _ _ reducesTo_S32_S_d0 h_S_ i).trans ?_
  rw [Finset.filter_true_of_mem (fun j _ => funext fun b => b.elim0)]
  show Finset.univ.fold max (Ideal.ofBits .f32 0xFF800000#32) (firsts 4 slices_S6x262144_S1x262144_4_0 P) = _
  rw [ofBits_neg_inf]
  refine eq_of_forall_ge_iff fun b => ?_
  rw [TiledSoftmax.univ_fold_max_le_iff, TiledSoftmax.univ_fold_max_le_iff]
  constructor
  · intro h t
    rw [← firsts_apply 4 slices_S6x262144_S1x262144_4_0 P 4 rfl t]
    exact h (ix1 t)
  · intro h j
    obtain ⟨t, rfl⟩ : ∃ t : Fin 32, j = ix1 t := ⟨j 0, eq_ix1 j⟩
    rw [firsts_apply 4 slices_S6x262144_S1x262144_4_0 P 4 rfl t]
    exact h t

/-- The combined total: zero plus the tiles' totals, each rescaled from its own maximum to the combined one. -/
theorem gsum_apply (P : FVec Ideal S6x262144 .f32) (i : S_.Idx) :
    gsum P i = Ideal.ofBits .f32 0x00000000#32
      + ∑ t : Fin 32, (P (ix2 (5 : Fin 6) (row t 0)) : EReal)
          * Ideal.exp ((P (ix2 (4 : Fin 6) (row t 0)) : EReal) - gmax P ix0) := by
  unfold gsum
  simp only [Host.reduceAdd, Ideal.hostReduceAdd_def]
  refine (Ideal.hostReduceAdd_total reducesTo_S32_S_d0 (fun b => b.elim0) _ _ i).trans ?_
  refine congrArg (Ideal.ofBits .f32 0x00000000#32 + ·) ?_
  refine Fintype.sum_equiv idx1Equiv _ _ fun j => ?_
  obtain ⟨t, rfl⟩ : ∃ t : Fin 32, j = ix1 t := ⟨j 0, eq_ix1 j⟩
  show firsts 5 slices_S6x262144_S1x262144_5_0 P (ix1 t)
      * Ideal.exp (firsts 4 slices_S6x262144_S1x262144_4_0 P (ix1 t) - broadcastInDim S32 ![] bcast_S_S32 (gmax P) (ix1 t))
    = (P (ix2 (5 : Fin 6) (row t 0)) : EReal) * Ideal.exp ((P (ix2 (4 : Fin 6) (row t 0)) : EReal) - gmax P ix0)
  rw [broadcastInDim_apply _ bcast_S_S32 (gmax P) (ix1 t) ix0 (fun a => a.elim0),
    firsts_apply 5 slices_S6x262144_S1x262144_5_0 P 5 rfl t, firsts_apply 4 slices_S6x262144_S1x262144_4_0 P 4 rfl t]

/-- The result at (R, j): the exponential of the score shifted by the combined maximum, over the combined total. -/
theorem tail_apply (P : FVec Ideal S6x262144 .f32) (R : Fin 262144) (j : Fin 4) (a : Fin 6) (ha : a.val = j.val) :
    tail P (ix2 R j) = Ideal.div (Ideal.exp ((P (ix2 a R) : EReal) - gmax P ix0)) (gsum P ix0) := by
  show Ideal.div (Ideal.exp (transpose S262144x4 [1, 0] (extractStridedSlice S4x262144 ![0, 0] P slices_S6x262144_S4x262144_0_0)
        transposes_S4x262144_S262144x4_1_0 (ix2 R j) - broadcastInDim S262144x4 ![] bcast_S_S262144x4 (gmax P) (ix2 R j)))
      (broadcastInDim S262144x4 ![] bcast_S_S262144x4 (gsum P) (ix2 R j)) = _
  rw [transpose_ix2_apply _ transposes_S4x262144_S262144x4_1_0 R j,
    slice2_axis0_apply 0 P slices_S6x262144_S4x262144_0_0 j R a (by rw [ha]; omega),
    broadcastInDim_apply _ bcast_S_S262144x4 (gmax P) (ix2 R j) ix0 (fun a => a.elim0),
    broadcastInDim_apply _ bcast_S_S262144x4 (gsum P) (ix2 R j) ix0 (fun a => a.elim0)]

end Cert.KernelIdeal.HostTail

end
-- ==== Proof.Packed.lean ====
/-
  The packed array the kernel leaves, as one function of the argument arrays.

  The grid has 32 points; point t stages rows 8192 t .. 8192 t + 8191 of the input and the whole of every weight and bias,
  and writes back columns 8192 t .. 8192 t + 8191 of the [6, 262144] output. With L(R, j) the score of class j of row R of
  the whole input, the output ends holding, at (a, R):
      L(R, a) for a < 4,   the maximum of L over the tile of R for a = 4,   the tile's total of exp (L - that maximum) for a = 5.
  Every column of the output lies in exactly the block of the point R / 8192, so the blocks cover the array.
-/
import proofs.«129930_j26654567039110_2_alg».proof.Proof.Gen.KernelIdeal.Frame
import proofs.«129930_j26654567039110_2_alg».proof.Proof.TileScores
import proofs.«129930_j26654567039110_2_alg».proof.Proof.TilePack
import proofs.«129930_j26654567039110_2_alg».proof.Proof.HostTail
import proofs.«129930_j26654567039110_2_alg».proof.Proof.LibTiledSoftmax
import proofs.«129930_j26654567039110_2_alg».proof.Proof.Spec
import Idealize.ShloMosaic.Lib.Pipeline.Value
import Idealize.ShloMosaic.PureOps.Ideal

set_option maxRecDepth 16384

noncomputable section

namespace Cert.KernelIdeal.Packed

open Idealize.ShloMosaic Idealize.ShloMosaic.TcCoe Idealize.ShloMosaic.ValueIdx Idealize.SL.Sem
open Cert.KernelIdeal Cert.KernelIdeal.Gen Cert.KernelIdeal.HostTail Spec
open Idealize.ShloMosaic.Pipeline (Dat)

/-- What the kernel leaves in its packed array. -/
def packed (L : Fin 262144 → Fin 4 → EReal) : S6x262144.Idx → EReal := fun i =>
  if h : (i 0).val < 4 then L (i 1) ⟨(i 0).val, h⟩
  else if (i 0).val = 4 then TiledSoftmax.tileMax (tiled L) (tileOf (i 1))
  else TiledSoftmax.tileSum (tiled L) (tileOf (i 1))

theorem score_congr {x x' : Fin 256 → EReal} {w1 w1' : Mlp.Mat 256 64} {b1 b1' : Mlp.Mat 1 64} {w2 w2' : Mlp.Mat 64 16}
    {b2 b2' : Mlp.Mat 1 16} {w3 w3' : Mlp.Mat 16 4} {b3 b3' : Mlp.Mat 1 4} (hx : x = x') (h1 : w1 = w1') (h2 : b1 = b1')
    (h3 : w2 = w2') (h4 : b2 = b2') (h5 : w3 = w3') (h6 : b3 = b3') (j : Fin 4) :
    Mlp.score x w1 b1 w2 b2 w3 b3 j = Mlp.score x' w1' b1' w2' b2' w3' b3' j := by
  rw [hx, h1, h2, h3, h4, h5, h6]

/-- One block at an entry: if the block's rows score as rows 8192 t + r of the table L, the block stored is the matching
    columns of `packed L`. -/
theorem block_apply (L : Fin 262144 → Fin 4 → EReal) (t : Fin 32)
    (x0 : Vec Ideal S8192x256 .f32) (x1 : Vec Ideal S256x64 .f32) (x2 : Vec Ideal S1x64 .f32)
    (x3 : Vec Ideal S64x16 .f32) (x4 : Vec Ideal S1x16 .f32) (x5 : Vec Ideal S16x4 .f32) (x6 : Vec Ideal S1x4 .f32)
    (hL : ∀ (r : Fin 8192) (j : Fin 4), Mlp.score (fun k => x0 (ix2 r k)) x1 x2 x3 x4 x5 x6 j = L (row t r) j)
    (a : Fin 6) (r : Fin 8192) :
    k0_pay1 (F := Ideal) (k0_pay3 (F := Ideal) x0 x1 x2 x3 x4 x5 x6) (k0_pay4 (F := Ideal) x0 x1 x2 x3 x4 x5 x6)
        (k0_pay5 (F := Ideal) x0 x1 x2 x3 x4 x5 x6) (ix2 a r)
      = packed L (ix2 a (row t r)) := by
  have hP : ∀ (r : Fin 8192) (j : Fin 4), k0_pay2 (F := Ideal) x0 x1 x2 x3 x4 x5 x6 (ix2 r j) = tiled L t r j :=
    fun r j => (TileScores.pay2_apply x0 x1 x2 x3 x4 x5 x6 r j).trans (hL r j)
  have hmax : TilePack.tmax (k0_pay2 (F := Ideal) x0 x1 x2 x3 x4 x5 x6) = TiledSoftmax.tileMax (tiled L) t := by
    unfold TilePack.tmax TiledSoftmax.tileMax
    simp only [hP]
  have hsum : TilePack.tsum (k0_pay2 (F := Ideal) x0 x1 x2 x3 x4 x5 x6) = TiledSoftmax.tileSum (tiled L) t := by
    unfold TilePack.tsum TiledSoftmax.tileSum
    rw [hmax]
    simp only [hP]
  unfold packed
  by_cases h4 : a.val < 4
  · rw [dif_pos (show ((ix2 a (row t r) : S6x262144.Idx) 0).val < 4 from h4),
      TilePack.pack_scores _ _ _ a ⟨a.val, h4⟩ r rfl, TilePack.pay5_apply, hP]
    rfl
  · rw [dif_neg (show ¬ ((ix2 a (row t r) : S6x262144.Idx) 0).val < 4 from h4)]
    by_cases h5 : a.val = 4
    · rw [if_pos (show ((ix2 a (row t r) : S6x262144.Idx) 0).val = 4 from h5), TilePack.pack_max _ _ _ a r h5,
        TilePack.pay3_apply, hmax]
      show _ = TiledSoftmax.tileMax (tiled L) (tileOf (row t r))
      rw [tileOf_row]
    · have h6 : a.val = 5 := by have := a.isLt; omega
      rw [if_neg (show ¬ ((ix2 a (row t r) : S6x262144.Idx) 0).val = 4 from h5), TilePack.pack_sum _ _ _ a r h6,
        TilePack.pay4_apply, hsum]
      show _ = TiledSoftmax.tileSum (tiled L) (tileOf (row t r))
      rw [tileOf_row]

/-! ## From the blocks to the array -/

variable (m : (ℓ : Loc nD τ sig) → Buf (Elt Ideal) ℓ)

theorem zero_offsets : (![0, 0] : Fin 2 → Nat) = fun _ => 0 := funext fun a => by fin_cases a <;> rfl

/-- The printed index maps, decided once over the grid: the input's block is (t, 0), every weight's and bias's is (0, 0),
    the output's is (0, t). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-- The grid point as a tile number. -/
def tileAt (t : Fin cfg0.N) : Fin 32 := ⟨t.val, t.isLt⟩

/-- The table of scores of the input as the region finds it. -/
def table (c : Dev nD) : Fin 262144 → Fin 4 → EReal :=
  scores (V m c main_arg0) (V m c main_arg1) (V m c main_arg2) (V m c main_arg3) (V m c main_arg4) (V m c main_arg5)
    (V m c main_arg6)

/-- WHAT POINT t WRITES BACK is block t of `packed` of the table of scores. -/
theorem flushed7_eq (c : Dev nD) (t : Fin cfg0.N) :
    (dats m 0 c).flushed 7 t = ((cfg0.win 7).blk t).view.read (Elt Ideal) (packed (table m c)) := by
  show (cfg0.win 7).cut (grid0.coords t) ((dats m 0 c).after 7 t) = _
  rw [after0_7]
  unfold out0_7
  rw [View.canon_unit_zero zero_offsets]
  simp only [View.ld_unit_zero (S := S8192x256) zero_offsets, View.ld_unit_zero (S := S256x64) zero_offsets,
    View.ld_unit_zero (S := S1x64) zero_offsets, View.ld_unit_zero (S := S64x16) zero_offsets,
    View.ld_unit_zero (S := S1x16) zero_offsets, View.ld_unit_zero (S := S16x4) zero_offsets,
    View.ld_unit_zero (S := S1x4) zero_offsets]
  obtain ⟨e00, e01, e10, e11, e20, e21, e30, e31, e40, e41, e50, e51, e60, e61, e70, e71⟩ := index_facts t
  have h0 : ∀ (r : Fin 8192) (k : Fin 256), iblk m c 0 t (ix2 r k) = V m c main_arg0 (ix2 (row (tileAt t) r) k) := fun r k => by
    show V m c main_arg0 (((cfg0.win 0).blk t).view.emb (ix2 r k)) = _
    refine congrArg (V m c main_arg0) (funext fun a => Fin.ext ?_)
    match a with
    | ⟨0, _⟩ => show win0_0.index t (0 : Fin 2) * 8192 + 1 * r.val = t.val * 8192 + r.val; omega
    | ⟨1, _⟩ => show win0_0.index t (1 : Fin 2) * 256 + 1 * k.val = k.val; omega
  have h1 : (iblk m c 1 t : S256x64.Idx → EReal) = V m c main_arg1 := funext fun y => by
    show V m c main_arg1 (((cfg0.win 1).blk t).view.emb y) = V m c main_arg1 y
    refine congrArg (V m c main_arg1) (funext fun a => Fin.ext ?_)
    match a with
    | ⟨0, _⟩ => show win0_1.index t (0 : Fin 2) * 256 + 1 * (y 0).val = (y 0).val; omega
    | ⟨1, _⟩ => show win0_1.index t (1 : Fin 2) * 64 + 1 * (y 1).val = (y 1).val; omega
  have h2 : (iblk m c 2 t : S1x64.Idx → EReal) = V m c main_arg2 := funext fun y => by
    show V m c main_arg2 (((cfg0.win 2).blk t).view.emb y) = V m c main_arg2 y
    refine congrArg (V m c main_arg2) (funext fun a => Fin.ext ?_)
    match a with
    | ⟨0, _⟩ => show win0_2.index t (0 : Fin 2) * 1 + 1 * (y 0).val = (y 0).val; omega
    | ⟨1, _⟩ => show win0_2.index t (1 : Fin 2) * 64 + 1 * (y 1).val = (y 1).val; omega
  have h3 : (iblk m c 3 t : S64x16.Idx → EReal) = V m c main_arg3 := funext fun y => by
    show V m c main_arg3 (((cfg0.win 3).blk t).view.emb y) = V m c main_arg3 y
    refine congrArg (V m c main_arg3) (funext fun a => Fin.ext ?_)
    match a with
    | ⟨0, _⟩ => show win0_3.index t (0 : Fin 2) * 64 + 1 * (y 0).val = (y 0).val; omega
    | ⟨1, _⟩ => show win0_3.index t (1 : Fin 2) * 16 + 1 * (y 1).val = (y 1).val; omega
  have h4 : (iblk m c 4 t : S1x16.Idx → EReal) = V m c main_arg4 := funext fun y => by
    show V m c main_arg4 (((cfg0.win 4).blk t).view.emb y) = V m c main_arg4 y
    refine congrArg (V m c main_arg4) (funext fun a => Fin.ext ?_)
    match a with
    | ⟨0, _⟩ => show win0_4.index t (0 : Fin 2) * 1 + 1 * (y 0).val = (y 0).val; omega
    | ⟨1, _⟩ => show win0_4.index t (1 : Fin 2) * 16 + 1 * (y 1).val = (y 1).val; omega
  have h5 : (iblk m c 5 t : S16x4.Idx → EReal) = V m c main_arg5 := funext fun y => by
    show V m c main_arg5 (((cfg0.win 5).blk t).view.emb y) = V m c main_arg5 y
    refine congrArg (V m c main_arg5) (funext fun a => Fin.ext ?_)
    match a with
    | ⟨0, _⟩ => show win0_5.index t (0 : Fin 2) * 16 + 1 * (y 0).val = (y 0).val; omega
    | ⟨1, _⟩ => show win0_5.index t (1 : Fin 2) * 4 + 1 * (y 1).val = (y 1).val; omega
  have h6 : (iblk m c 6 t : S1x4.Idx → EReal) = V m c main_arg6 := funext fun y => by
    show V m c main_arg6 (((cfg0.win 6).blk t).view.emb y) = V m c main_arg6 y
    refine congrArg (V m c main_arg6) (funext fun a => Fin.ext ?_)
    match a with
    | ⟨0, _⟩ => show win0_6.index t (0 : Fin 2) * 1 + 1 * (y 0).val = (y 0).val; omega
    | ⟨1, _⟩ => show win0_6.index t (1 : Fin 2) * 4 + 1 * (y 1).val = (y 1).val; omega
  have hL : ∀ (r : Fin 8192) (j : Fin 4),
      Mlp.score (fun k => iblk m c 0 t (ix2 r k)) (iblk m c 1 t) (iblk m c 2 t) (iblk m c 3 t) (iblk m c 4 t) (iblk m c 5 t)
        (iblk m c 6 t) j = table m c (row (tileAt t) r) j := fun r j =>
    score_congr (funext (h0 r)) h1 h2 h3 h4 h5 h6 j
  funext y
  obtain ⟨a, r, rfl⟩ : ∃ (a : Fin 6) (r : Fin 8192), y = ix2 a r := ⟨y 0, y 1, eq_ix2 y⟩
  have hemb : ((cfg0.win 7).blk t).view.emb (ix2 a r) = (ix2 a (row (tileAt t) r) : S6x262144.Idx) := by
    funext d
    apply Fin.ext
    match d with
    | ⟨0, _⟩ => show win0_7.index t (0 : Fin 2) * 6 + 1 * a.val = a.val; omega
    | ⟨1, _⟩ => show win0_7.index t (1 : Fin 2) * 8192 + 1 * r.val = t.val * 8192 + r.val; omega
  show k0_pay1 (F := Ideal) (k0_pay3 (F := Ideal) (iblk m c 0 t) (iblk m c 1 t) (iblk m c 2 t) (iblk m c 3 t) (iblk m c 4 t) (iblk m c 5 t) (iblk m c 6 t))
      (k0_pay4 (F := Ideal) (iblk m c 0 t) (iblk m c 1 t) (iblk m c 2 t) (iblk m c 3 t) (iblk m c 4 t) (iblk m c 5 t) (iblk m c 6 t))
      (k0_pay5 (F := Ideal) (iblk m c 0 t) (iblk m c 1 t) (iblk m c 2 t) (iblk m c 3 t) (iblk m c 4 t) (iblk m c 5 t) (iblk m c 6 t)) (ix2 a r)
    = packed (table m c) (((cfg0.win 7).blk t).view.emb (ix2 a r))
  rw [hemb]
  exact block_apply (table m c) (tileAt t) (iblk m c 0 t) (iblk m c 1 t) (iblk m c 2 t) (iblk m c 3 t) (iblk m c 4 t)
    (iblk m c 5 t) (iblk m c 6 t) hL a r

/-- An index of the array is in point t's block iff each coordinate is in the block's range on its axis. -/
theorem mem_blk7 (t : Fin cfg0.N) (i : S6x262144.Idx) :
    i ∈ ((cfg0.win 7).blk t).view.set ↔ ∀ a : Fin 2, win0_7.index t a * S6x8192.size a ≤ (i a).val
      ∧ (i a).val < win0_7.index t a * S6x8192.size a + S6x8192.size a := by
  show i ∈ ((View.whole main_v0).slice (win0_7.rect t)).set ↔ _
  rw [View.set_slice_whole, Rect.mem_set_unit]
  exact Iff.rfl

/-- Column R of the output lies in the block of point R / 8192. -/
theorem cover7 (i : S6x262144.Idx) :
    ∃ t : Fin cfg0.N, (cfg0.win 7).flush t = true ∧ i ∈ ((cfg0.win 7).blk t).view.set := by
  have hi0 : (i 0).val < 6 := (i 0).isLt
  have hi1 : (i 1).val < 262144 := (i 1).isLt
  have hq : (i 1).val / 8192 < cfg0.N := by show (i 1).val / 8192 < 32; omega
  refine ⟨⟨(i 1).val / 8192, hq⟩, flush0_7 _, ?_⟩
  rw [mem_blk7]
  obtain ⟨-, -, -, -, -, -, -, -, -, -, -, -, -, -, e70, e71⟩ := index_facts ⟨(i 1).val / 8192, hq⟩
  have e71' : win0_7.index ⟨(i 1).val / 8192, hq⟩ (1 : Fin 2) = (i 1).val / 8192 := e71
  intro a
  match a with
  | ⟨0, _⟩ =>
    show win0_7.index ⟨(i 1).val / 8192, hq⟩ (0 : Fin 2) * 6 ≤ (i 0).val
      ∧ (i 0).val < win0_7.index ⟨(i 1).val / 8192, hq⟩ (0 : Fin 2) * 6 + 6
    omega
  | ⟨1, _⟩ =>
    show win0_7.index ⟨(i 1).val / 8192, hq⟩ (1 : Fin 2) * 8192 ≤ (i 1).val
      ∧ (i 1).val < win0_7.index ⟨(i 1).val / 8192, hq⟩ (1 : Fin 2) * 8192 + 8192
    omega

/-- THE ARRAY after the run: `packed` of the table of scores. -/
theorem final7 (c : Dev nD) : (dats m 0 c).arrAt 7 cfg0.N = packed (table m c) :=
  (dats m 0 c).arrAt_eq_of_cover 7 (packed (table m c)) (fun t _ => flushed7_eq m c t) cover7

end Cert.KernelIdeal.Packed

end
-- ==== Proof.KernelResult.lean ====
/-
  The kernel's result as one function of the argument arrays.

  The lines after the kernel read rows 4 and 5 of the packed array at the first column of each tile, which hold the tile's
  maximum and total; so the combined maximum is the maximum taken tile by tile and the combined total the tiles' totals
  recombined, and the result at (R, j) is exp (L(R, j) - M) / (0 + S) of the table of scores L: Spec.result. Nothing is
  assumed finite here: both sides are the same expression of the same folds and sums.
-/
import proofs.«129930_j26654567039110_2_alg».proof.Proof.Packed

set_option maxRecDepth 16384

noncomputable section

namespace Cert.KernelIdeal.Result

open Idealize.ShloMosaic Idealize.ShloMosaic.TcCoe Idealize.ShloMosaic.ValueIdx Idealize.SL.Sem Idealize.ShloMosaic.StableHlo
open Cert.KernelIdeal Cert.KernelIdeal.Gen Cert.KernelIdeal.HostTail Cert.KernelIdeal.Packed Spec

/-- Rows 0..3 of the packed array hold the scores. -/
theorem packed_score (L : Fin 262144 → Fin 4 → EReal) (a : Fin 6) (j : Fin 4) (ha : a.val = j.val) (R : Fin 262144) :
    packed L (ix2 a R) = L R j := by
  unfold packed
  have h4 : ((ix2 a R : S6x262144.Idx) 0).val < 4 := by show a.val < 4; omega
  rw [dif_pos h4]
  show L R ⟨a.val, _⟩ = L R j
  exact congrArg (L R) (Fin.ext ha)

/-- Row 4 holds each tile's maximum. -/
theorem packed_max (L : Fin 262144 → Fin 4 → EReal) (t : Fin 32) (r : Fin 8192) :
    packed L (ix2 (4 : Fin 6) (row t r)) = TiledSoftmax.tileMax (tiled L) t := by
  unfold packed
  rw [dif_neg (show ¬ ((ix2 (4 : Fin 6) (row t r) : S6x262144.Idx) 0).val < 4 by show ¬ (4 : ℕ) < 4; omega),
    if_pos (show ((ix2 (4 : Fin 6) (row t r) : S6x262144.Idx) 0).val = 4 from rfl)]
  show TiledSoftmax.tileMax (tiled L) (tileOf (row t r)) = _
  rw [tileOf_row]

/-- Row 5 holds each tile's total. -/
theorem packed_sum (L : Fin 262144 → Fin 4 → EReal) (t : Fin 32) (r : Fin 8192) :
    packed L (ix2 (5 : Fin 6) (row t r)) = TiledSoftmax.tileSum (tiled L) t := by
  unfold packed
  rw [dif_neg (show ¬ ((ix2 (5 : Fin 6) (row t r) : S6x262144.Idx) 0).val < 4 by show ¬ (5 : ℕ) < 4; omega),
    if_neg (show ¬ ((ix2 (5 : Fin 6) (row t r) : S6x262144.Idx) 0).val = 4 by show ¬ (5 : ℕ) = 4; omega)]
  show TiledSoftmax.tileSum (tiled L) (tileOf (row t r)) = _
  rw [tileOf_row]

/-- The lines after the kernel, run on the packed array of a table of scores, give the softmax over all its entries. -/
theorem tail_packed (L : Fin 262144 → Fin 4 → EReal) (R : Fin 262144) (j : Fin 4) :
    tail (packed L) (ix2 R j) = result L R j := by
  have hM : gmax (packed L) ix0 = TiledSoftmax.allMax (tiled L) := by
    rw [gmax_apply]
    unfold TiledSoftmax.allMax
    exact congrArg (fun f : Fin 32 → EReal => Finset.univ.fold max ⊥ f) (funext fun t => packed_max L t 0)
  have hS : gsum (packed L) ix0 = Ideal.ofBits .f32 0x00000000#32 + TiledSoftmax.allSum (tiled L) := by
    rw [gsum_apply, hM]
    unfold TiledSoftmax.allSum
    refine congrArg (Ideal.ofBits .f32 0x00000000#32 + ·) (Finset.sum_congr rfl fun t _ => ?_)
    rw [packed_sum, packed_max]
  rw [tail_apply (packed L) R j ⟨j.val, by omega⟩ rfl, hM, hS, packed_score L ⟨j.val, by omega⟩ j rfl R]
  rfl

variable (m : (ℓ : Loc nD τ sig) → Buf (Elt Ideal) ℓ)

/-- What the result buffer holds after the lines that follow the kernel: their function of the packed array. -/
theorem afterTail_eq (c : Dev nD) :
    Pipeline.afterTail₀ cfgs (dats (F := Ideal) m) 0 (V0 m) [hostOps1] c main_v23 = tail (packed (table m c)) := by
  unfold Pipeline.afterTail₀
  have e : ([hostOps1] : List (List (HloOp τ sig (Elt Ideal)))).flatten = hostOps1 := by
    simp only [List.flatten_cons, List.flatten_nil, List.append_nil]
  rw [e, after_tail]
  exact congrArg tail ((Pipeline.withArrays_arr spec0 launch0.win.arr_inj c _ _ 7).trans (final7 m c))

/-- The result buffer is no window's array and is not scoped: the run's post speaks of it through the lines after the kernel. -/
theorem result_mem : main_v23 ∈ Pipeline.restRefs sig (cfgs 0).spec :=
  Pipeline.mem_restRefs_of main_v23 rfl (by decide)

/-- THE KERNEL'S RUN with its result named: the softmax over all entries of the table of scores, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v23) = (fun i : S262144x4.Idx => result (table m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v23 result_mem).trans ((afterTail_eq m c).trans (funext fun i => by
        obtain ⟨R, j, rfl⟩ : ∃ (R : Fin 262144) (j : Fin 4), i = ix2 R j := ⟨i 0, i 1, eq_ix2 i⟩
        exact tail_packed (table m c) R j)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Result

end
-- ==== Proof.RefValue.lean ====
/-
  The reference's result, read at an entry.

  The reference computes the same three layers on all 262144 rows at once (its matrix products are the plain sums of
  products, its rectifier's zero the same f32 zero word), so its table before the softmax is the table of scores L. It then
  takes M' = the maximum of L over the whole table (one fold of max from -infinity over both axes), the total
  0 + sum over the whole table of exp (L - M'), and divides. M' has the same upper bounds as the maximum taken tile by
  tile, so the two are equal with nothing assumed finite. The total over the whole table is the sum over tiles of the sums
  over the tiles' rows; that it equals the tiles' totals recombined is the law exp (a - m) exp (m - M) = exp (a - M) with
  distributivity, which needs every score to be a real number.
-/
import proofs.«129930_j26654567039110_2_alg».proof.Proof.Gen.ReferenceIdeal.Read
import proofs.«129930_j26654567039110_2_alg».proof.Proof.Spec
import Idealize.ShloMosaic.PureOps.Ideal.Laws
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.Read Spec

variable (x0 : (⟨S262144x256, .f32⟩ : BufTy).Contents (Elt Ideal)) (x1 : (⟨S256x64, .f32⟩ : BufTy).Contents (Elt Ideal))
  (x2 : (⟨S1x64, .f32⟩ : BufTy).Contents (Elt Ideal)) (x3 : (⟨S64x16, .f32⟩ : BufTy).Contents (Elt Ideal))
  (x4 : (⟨S1x16, .f32⟩ : BufTy).Contents (Elt Ideal)) (x5 : (⟨S16x4, .f32⟩ : BufTy).Contents (Elt Ideal))
  (x6 : (⟨S1x4, .f32⟩ : BufTy).Contents (Elt Ideal))

theorem ofBits_neg_inf : Ideal.ofBits .f32 0xFF800000#32 = (⊥ : EReal) := by simp [Ideal.ofBits, Ideal.ieee]

/-- The first hidden layer at (R, a). -/
theorem v3_apply (R : Fin 262144) (a : Fin 64) :
    val_main_v3 (F := Ideal) x0 x1 x2 (ix2 R a) = Mlp.hidden1 (fun k => x0 (ix2 R k)) x1 x2 a := by
  have el : ∀ k : Fin 256, lidx_main_v0 (ix2 R a) k = ix2 R k := fun k =>
    funext fun d => Fin.ext (by match d with | ⟨0, _⟩ => rfl | ⟨1, _⟩ => rfl)
  have er : ∀ k : Fin 256, ridx_main_v0 (ix2 R a) k = ix2 k a := fun k =>
    funext fun d => Fin.ext (by match d with | ⟨0, _⟩ => rfl | ⟨1, _⟩ => rfl)
  have eb : idx_main_v1 (ix2 R a) = ix2 (0 : Fin 1) a :=
    funext fun d => Fin.ext (by match d with | ⟨0, _⟩ => rfl | ⟨1, _⟩ => rfl)
  rw [val_main_v3_apply, val_main_v2_apply, val_main_v0_apply, val_main_v1_apply, val_main_call0_v0_apply,
    val_main_call0_cst_apply]
  simp only [el, er, eb]
  rfl

/-- The second hidden layer at (R, a). -/
theorem v7_apply (R : Fin 262144) (a : Fin 16) :
    val_main_v7 (F := Ideal) x0 x1 x2 x3 x4 (ix2 R a) = Mlp.hidden2 (fun k => x0 (ix2 R k)) x1 x2 x3 x4 a := by
  have el : ∀ k : Fin 64, lidx_main_v4 (ix2 R a) k = ix2 R k := fun k =>
    funext fun d => Fin.ext (by match d with | ⟨0, _⟩ => rfl | ⟨1, _⟩ => rfl)
  have er : ∀ k : Fin 64, ridx_main_v4 (ix2 R a) k = ix2 k a := fun k =>
    funext fun d => Fin.ext (by match d with | ⟨0, _⟩ => rfl | ⟨1, _⟩ => rfl)
  have eb : idx_main_v5 (ix2 R a) = ix2 (0 : Fin 1) a :=
    funext fun d => Fin.ext (by match d with | ⟨0, _⟩ => rfl | ⟨1, _⟩ => rfl)
  rw [val_main_v7_apply, val_main_v6_apply, val_main_v4_apply, val_main_v5_apply]
  simp only [el, er, eb, v3_apply]
  rfl

/-- The table before the softmax is the table of scores. -/
theorem v10_apply (R : Fin 262144) (j : Fin 4) :
    val_main_v10 (F := Ideal) x0 x1 x2 x3 x4 x5 x6 (ix2 R j) = scores x0 x1 x2 x3 x4 x5 x6 R j := by
  have el : ∀ k : Fin 16, lidx_main_v8 (ix2 R j) k = ix2 R k := fun k =>
    funext fun d => Fin.ext (by match d with | ⟨0, _⟩ => rfl | ⟨1, _⟩ => rfl)
  have er : ∀ k : Fin 16, ridx_main_v8 (ix2 R j) k = ix2 k j := fun k =>
    funext fun d => Fin.ext (by match d with | ⟨0, _⟩ => rfl | ⟨1, _⟩ => rfl)
  have eb : idx_main_v9 (ix2 R j) = ix2 (0 : Fin 1) j :=
    funext fun d => Fin.ext (by match d with | ⟨0, _⟩ => rfl | ⟨1, _⟩ => rfl)
  rw [val_main_v10_apply, val_main_v8_apply, val_main_v9_apply]
  simp only [el, er, eb, v7_apply]
  rfl

/-- The reference's maximum is below b exactly when every score is. -/
theorem v11_le_iff (i : S_.Idx) (b : EReal) :
    val_main_v11 (F := Ideal) x0 x1 x2 x3 x4 x5 x6 i ≤ b ↔ ∀ R j, scores x0 x1 x2 x3 x4 x5 x6 R j ≤ b := by
  unfold val_main_v11
  rw [Host.reduce_eq_fold (FloatOps.maximumf (F := Ideal) (φ := .f32)) _ _ reducesTo_S262144x4_S_d0_1 h_S_ i,
    Finset.filter_true_of_mem (fun j _ => funext fun d => d.elim0)]
  show Finset.univ.fold max (Ideal.ofBits .f32 0xFF800000#32) (val_main_v10 (F := Ideal) x0 x1 x2 x3 x4 x5 x6) ≤ b ↔ _
  rw [ofBits_neg_inf, TiledSoftmax.univ_fold_max_le_iff]
  constructor
  · intro h R j
    rw [← v10_apply]
    exact h _
  · intro h i'
    obtain ⟨R, j, rfl⟩ : ∃ (R : Fin 262144) (j : Fin 4), i' = ix2 R j := ⟨i' 0, i' 1, eq_ix2 i'⟩
    rw [v10_apply]
    exact h R j

/-- So it is the maximum taken tile by tile. -/
theorem v11_eq (i : S_.Idx) :
    val_main_v11 (F := Ideal) x0 x1 x2 x3 x4 x5 x6 i = TiledSoftmax.allMax (tiled (scores x0 x1 x2 x3 x4 x5 x6)) :=
  TiledSoftmax.eq_allMax_of_le_iff _ _ fun b =>
    (v11_le_iff x0 x1 x2 x3 x4 x5 x6 i b).trans (forall_rows fun R => ∀ j, scores x0 x1 x2 x3 x4 x5 x6 R j ≤ b)

/-- The shifted exponential at (R, j). -/
theorem v14_apply (R : Fin 262144) (j : Fin 4) :
    val_main_v14 (F := Ideal) x0 x1 x2 x3 x4 x5 x6 (ix2 R j)
      = Ideal.exp (scores x0 x1 x2 x3 x4 x5 x6 R j - TiledSoftmax.allMax (tiled (scores x0 x1 x2 x3 x4 x5 x6))) := by
  rw [val_main_v14_apply, val_main_v13_apply, val_main_v12_apply, v10_apply, v11_eq]
  rfl

/-- The reference's total: zero plus the sum over tiles, rows and classes. -/
theorem v15_apply (i : S_.Idx) :
    val_main_v15 (F := Ideal) x0 x1 x2 x3 x4 x5 x6 i
      = Ideal.ofBits .f32 0x00000000#32 + ∑ t : Fin 32, ∑ r : Fin 8192, ∑ j : Fin 4,
          Ideal.exp (tiled (scores x0 x1 x2 x3 x4 x5 x6) t r j - TiledSoftmax.allMax (tiled (scores x0 x1 x2 x3 x4 x5 x6))) := by
  rw [val_main_v15_apply]
  refine congrArg (Ideal.ofBits .f32 0x00000000#32 + ·) ?_
  rw [sum_idx2, sum_rows]
  refine Finset.sum_congr rfl fun t _ => Finset.sum_congr rfl fun r _ => Finset.sum_congr rfl fun j _ => ?_
  exact v14_apply x0 x1 x2 x3 x4 x5 x6 (row t r) j

/-- THE REFERENCE'S RESULT: with real scores, the softmax over all entries with the maximum and the total taken tile by tile. -/
theorem ref_result (hreal : ∀ R j, ∃ x : ℝ, scores x0 x1 x2 x3 x4 x5 x6 R j = (x : EReal)) (R : Fin 262144) (j : Fin 4) :
    val_main_v17 (F := Ideal) x0 x1 x2 x3 x4 x5 x6 (ix2 R j) = result (scores x0 x1 x2 x3 x4 x5 x6) R j := by
  rw [val_main_v17_apply, val_main_v16_apply, v14_apply, v15_apply]
  unfold result
  rw [TiledSoftmax.allSum_eq (tiled (scores x0 x1 x2 x3 x4 x5 x6)) (fun t r c => hreal (row t r) c)]
  rfl

end Cert.ReferenceIdeal.RefValue

end
-- ==== Proof.FiniteInputs.lean ====
/-
  FINITE INPUTS ARE REALS. The precondition `finite_inputs` says of each of the seven float arguments x that
  |x| < +∞ holds at every entry: it takes the absolute value, compares it (ordered, strictly less) with the splat of the
  pattern 0x7F800000, which denotes +∞, folds the resulting truth values by `and` over both axes starting from `true`,
  and joins the seven folds by `and`. Read over the extended reals, where the absolute value of x is max x (-x), the
  result being `true` gives max x (-x) < ⊤ at every entry of every argument. An extended real with max x (-x) < ⊤ is
  neither ⊤ (then max x (-x) = ⊤) nor ⊥ (then -x = ⊤), so it is a real number.

  `real_of_abs_lt_top`  an extended real whose absolute value is below ⊤ is a real;
  `real_of_elem`        the same, stated on the comparison bit of one entry;
  `real_of_all`         for an array of any shape: the `and`-fold of the comparison bits being 1 makes every entry a real;
  `real_of_pre`         the precondition, split into its seven folds, gives this for all seven arguments.
-/
import proofs.«129930_j26654567039110_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.FiniteInputs

open Idealize.ShloMosaic Cert.Pre_finite_inputs

/-- The rank-zero shape has one index. -/
instance : Subsingleton S_.Idx := ⟨fun a b => funext fun d => d.elim0⟩

/-- An extended real whose absolute value max x (-x) is below ⊤ is a real: at ⊤ the maximum is ⊤, at ⊥ its second
    argument -⊥ is ⊤. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The pattern 0x7F800000 denotes +∞. -/
theorem ofBits_inf : Ideal.ofBits .f32 0x7F800000#32 = (⊤ : EReal) := by simp [Ideal.ofBits, Ideal.ieee]

/-- One entry: the bit of |x| < +∞ being 1 makes x a real. -/
theorem real_of_elem (x : Ideal .f32)
    (h : FloatOps.cmpf (F := Ideal) .olt (FloatOps.hostAbsf x) (FloatOps.ofBits .f32 0x7F800000#32) = 1#1) :
    ∃ r : ℝ, x = (r : EReal) := by
  apply real_of_abs_lt_top
  rw [Ideal.cmpf_def, Ideal.ofBits_def, ofBits_inf] at h
  by_contra hn
  have : Ideal.cmp .olt (FloatOps.hostAbsf x) (⊤ : EReal) = 0#1 := by
    show BitVec.ofBool (decide (max x (-x) < (⊤ : EReal))) = 0#1
    rw [decide_eq_false hn]; rfl
  rw [this] at h
  exact absurd h (by decide)

/-- An array of any shape: if the `and`-fold over all its entries of the bits of |x i| < +∞, started from 1, is 1, then
    every entry is a real. -/
theorem real_of_all {s : Shape} {axes : List (Fin s.rank)} (hb : S_.BroadcastsInDim s (![] : Fin 0 → Fin s.rank))
    (hr : s.ReducesTo axes S_) (hu : 0 < S_.numel) (x : FVec Ideal s .f32)
    (h : Host.reduce IntOp.andi
          (cmpf .olt (Host.absf x) (broadcastInDim s ![] hb (constant (F := Ideal) S_ .f32 0x7F800000#32)))
          (constantI S_ 1 1#1) hr hu ValueIdx.ix0 = 1#1) :
    ∀ i, ∃ r : ℝ, x i = (r : EReal) := fun i =>
  real_of_elem (x i) (Host.reduce_andi_all _ _ hr hu ValueIdx.ix0 h i)

/-- THE PRECONDITION DECODED: every entry of every argument is a real. -/
theorem real_of_pre [Facts] (a0 : FVec Ideal S262144x256 .f32) (a1 : FVec Ideal S256x64 .f32) (a2 : FVec Ideal S1x64 .f32)
    (a3 : FVec Ideal S64x16 .f32) (a4 : FVec Ideal S1x16 .f32) (a5 : FVec Ideal S16x4 .f32) (a6 : FVec Ideal S1x4 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have e := congrFun h ValueIdx.ix0
  dsimp only [fn, fn_part1] at e
  simp only [andi, IntOp.andi_eq_one] at e
  obtain ⟨⟨⟨⟨⟨⟨h0, h1⟩, h2⟩, h3⟩, h4⟩, h5⟩, h6⟩ := e
  exact ⟨real_of_all _ _ _ a0 h0, real_of_all _ _ _ a1 h1, real_of_all _ _ _ a2 h2, real_of_all _ _ _ a3 h3,
    real_of_all _ _ _ a4 h4, real_of_all _ _ _ a5 h5, real_of_all _ _ _ a6 h6⟩

end Cert.FiniteInputs

end
-- ==== Proof.Bridge.lean ====
/-
  The two results are one function of the arguments.

  Under the precondition every entry of every argument is a real number, so every score is real (Mlp.score_real), and the
  reference's softmax over the whole table is the softmax with the maximum and the total taken tile by tile
  (RefValue.ref_result), which is what the kernel and the lines after it compute (Result.run).
-/
import proofs.«129930_j26654567039110_2_alg».proof.Proof.KernelResult
import proofs.«129930_j26654567039110_2_alg».proof.Proof.RefValue
import proofs.«129930_j26654567039110_2_alg».proof.Proof.FiniteInputs
import proofs.«129930_j26654567039110_2_alg».proof.Proof.Gen.Pre_finite_inputs

noncomputable section

namespace Cert.Bridge

open Idealize.ShloMosaic Idealize.ShloMosaic.TcCoe Idealize.ShloMosaic.ValueIdx Idealize.SL.Sem

/-- With finite inputs every score is a real number. -/
theorem scores_real (a0 : FVec Ideal Cert.Pre_finite_inputs.S262144x256 .f32) (a1 : FVec Ideal Cert.Pre_finite_inputs.S256x64 .f32)
    (a2 : FVec Ideal Cert.Pre_finite_inputs.S1x64 .f32) (a3 : FVec Ideal Cert.Pre_finite_inputs.S64x16 .f32)
    (a4 : FVec Ideal Cert.Pre_finite_inputs.S1x16 .f32) (a5 : FVec Ideal Cert.Pre_finite_inputs.S16x4 .f32)
    (a6 : FVec Ideal Cert.Pre_finite_inputs.S1x4 .f32)
    (h : Cert.Pre_finite_inputs.fn (F := Ideal) a0 a1 a2 a3 a4 a5 a6 = fun _ => 1#1) (R : Fin 262144) (j : Fin 4) :
    ∃ x : ℝ, Spec.scores a0 a1 a2 a3 a4 a5 a6 R j = (x : EReal) := by
  obtain ⟨h0, h1, h2, h3, h4, h5, h6⟩ := Cert.FiniteInputs.real_of_pre a0 a1 a2 a3 a4 a5 a6 h
  exact Mlp.score_real (fun k => h0 _) h1 h2 h3 h4 h5 h6 j

/-- The table of scores the kernel's run speaks of is the table of the argument arrays. -/
theorem table_eq (m : (ℓ : Loc Cert.KernelIdeal.nD Cert.KernelIdeal.τ Cert.KernelIdeal.sig) → Buf (Elt Ideal) ℓ)
    (c : Dev Cert.KernelIdeal.nD) :
    Cert.KernelIdeal.Packed.table m c = Spec.scores (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := rfl

/-- THE REFERENCE'S RESULT ARRAY is the kernel's function of the argument arrays, when the inputs are finite. -/
theorem ref_eq (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) = fun _ => 1#1) :
    Cert.ReferenceIdeal.Read.val_main_v17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      = (fun i : Cert.KernelIdeal.S262144x4.Idx => Spec.result (Cert.KernelIdeal.Packed.table m c) (i 0) (i 1)) := by
  funext i
  obtain ⟨R, j, rfl⟩ : ∃ (R : Fin 262144) (j : Fin 4), i = ix2 R j := ⟨i 0, i 1, eq_ix2 i⟩
  show _ = Spec.result (Cert.KernelIdeal.Packed.table m c) R j
  rw [table_eq]
  exact Cert.ReferenceIdeal.RefValue.ref_result _ _ _ _ _ _ _ (scores_real _ _ _ _ _ _ _ hpre) R j

end Cert.Bridge

end
-- ==== Proof.lean ====
/-
  The certificate of a three-layer perceptron followed by a softmax over ALL entries of its [262144, 4] table of scores.

  The kernel cuts the 262144 rows into 32 tiles of 8192. Per tile it computes the scores (three dense layers with a
  rectifier and tanh between them), the tile's maximum m_t and the tile's total s_t = sum exp (score - m_t); the lines after
  it take M = max_t m_t, S = 0 + sum_t s_t exp (m_t - M) and return exp (score - M) / S. The reference computes the same
  scores on all rows at once, one maximum and one total over the whole table, and divides.
  On the extended reals the two maxima are equal with nothing assumed (they have the same upper bounds); the two totals are
  equal by exp (a - m) exp (m - M) = exp (a - M) and distributivity, which hold for real numbers and fail at infinities: here
  the precondition (every input finite) is used, through "every score is real".
  The three frames are the generated ones (the reference's is its generated run with the result dropped); the idealization
  rewrote nothing, so its conjunct is trivial.
-/
import proofs.«129930_j26654567039110_2_alg».proof.Defs
import proofs.«129930_j26654567039110_2_alg».proof.Proof.Gen.Kernel
import proofs.«129930_j26654567039110_2_alg».proof.Proof.Gen.Kernel.Skeleton
import proofs.«129930_j26654567039110_2_alg».proof.Proof.Gen.Kernel.Launch
import proofs.«129930_j26654567039110_2_alg».proof.Proof.Gen.Kernel.Points
import proofs.«129930_j26654567039110_2_alg».proof.Proof.Gen.Kernel.Frame
import proofs.«129930_j26654567039110_2_alg».proof.Proof.Gen.KernelIdeal
import proofs.«129930_j26654567039110_2_alg».proof.Proof.Gen.KernelIdeal.Skeleton
import proofs.«129930_j26654567039110_2_alg».proof.Proof.Gen.KernelIdeal.Launch
import proofs.«129930_j26654567039110_2_alg».proof.Proof.Gen.KernelIdeal.Points
import proofs.«129930_j26654567039110_2_alg».proof.Proof.Gen.KernelIdeal.Frame
import proofs.«129930_j26654567039110_2_alg».proof.Proof.Gen.ReferenceIdeal
import proofs.«129930_j26654567039110_2_alg».proof.Proof.Gen.ReferenceIdeal.Run
import proofs.«129930_j26654567039110_2_alg».proof.Proof.Gen.ReferenceIdeal.Read
import proofs.«129930_j26654567039110_2_alg».proof.Proof.Gen.Pre_finite_inputs
import Idealize.ShloMosaic.Adequacy
import Idealize.ShloMosaic.Init
import proofs.«129930_j26654567039110_2_alg».proof.Proof.Bridge

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the softmax over all entries of the table of scores of the arguments. -/
theorem algebraic : Cert.algebraic_KernelIdeal_ReferenceIdeal := by
  intro m ρ m' ρ' hpre hagree
  refine ⟨fun c => (fun i : Cert.KernelIdeal.S262144x4.Idx => Spec.result (Cert.KernelIdeal.Packed.table m c) (i 0) (i 1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.1, (hagree c).2.2.2.1,
    (hagree c).2.2.2.2.1, (hagree c).2.2.2.2.2.1, (hagree c).2.2.2.2.2.2]
  exact Cert.Bridge.ref_eq m c (hpre c)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
